-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v31_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v31_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x256 : Shape := ⟨2, ![128, 256]⟩
abbrev S384x128 : Shape := ⟨2, ![384, 128]⟩
abbrev S384 : Shape := ⟨1, ![384]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_arg13 : FVec F S384 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384 .f32 := Host.absf main_arg13
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  main_v58

def fn_part2 {F : FTy → Type} [FloatOps F] (main_arg9 : FVec F S128 .f32) (main_arg10 : FVec F S384x128 .f32) (main_arg11 : FVec F S384x128 .f32) (main_arg12 : FVec F S384 .f32) (main_arg13 : FVec F S384 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg10
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg12
  let main_cst_18 : FVec F S_ .f32 := constant S_ .f32 0x7F800000#32
  let main_v50 : FVec F S384 .f32 := broadcastInDim S384 ![] bcast_S_S384 main_cst_18
  fn_part3 (F := F) main_arg13 main_v48 main_v49 main_v50

def fn_part1 {F : FTy → Type} [FloatOps F] (main_arg6 : FVec F S128x256 .f32) (main_arg7 : FVec F S128 .f32) (main_arg8 : FVec F S128x128 .f32) (main_arg9 : FVec F S128 .f32) (main_arg10 : FVec F S384x128 .f32) (main_arg11 : FVec F S384x128 .f32) (main_arg12 : FVec F S384 .f32) (main_arg13 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S200000x128 .f32) (main_arg1 : FVec F S100000x128 .f32) (main_arg2 : IVec S1000000 32) (main_arg3 : IVec S1000000 32) (main_arg4 : FVec F S128x128 .f32) (main_arg5 : FVec F S128 .f32) (main_arg6 : FVec F S128x256 .f32) (main_arg7 : FVec F S128 .f32) (main_arg8 : FVec F S128x128 .f32) (main_arg9 : FVec F S128 .f32) (main_arg10 : FVec F S384x128 .f32) (main_arg11 : FVec F S384x128 .f32) (main_arg12 : FVec F S384 .f32) (main_arg13 : FVec F S384 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S200000x128 : Shape := ⟨2, ![200000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x256 : Shape := ⟨2, ![128, 256]⟩
abbrev S384x128 : Shape := ⟨2, ![384, 128]⟩
abbrev S384 : Shape := ⟨1, ![384]⟩
abbrev S256x128 : Shape := ⟨2, ![256, 128]⟩
abbrev S128x384 : Shape := ⟨2, ![128, 384]⟩
abbrev S1x128 : Shape := ⟨2, ![1, 128]⟩
abbrev S10000x128 : Shape := ⟨2, ![10000, 128]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S4000x128 : Shape := ⟨2, ![4000, 128]⟩
abbrev S4000x1 : Shape := ⟨2, ![4000, 1]⟩
abbrev S1x384 : Shape := ⟨2, ![1, 384]⟩
abbrev S4000x384 : Shape := ⟨2, ![4000, 384]⟩

abbrev nBuf : Space → Nat
  | .hbm => 71
  | .vmem => 31
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S128x128, .f32⟩
  | .hbm, ⟨15, _⟩ => ⟨S256x128, .f32⟩
  | .hbm, ⟨16, _⟩ => ⟨S128x128, .f32⟩
  | .hbm, ⟨17, _⟩ => ⟨S128x384, .f32⟩
  | .hbm, ⟨18, _⟩ => ⟨S128x384, .f32⟩
  | .hbm, ⟨19, _⟩ => ⟨S1x128, .f32⟩
  | .hbm, ⟨20, _⟩ => ⟨S100000x128, .bf16⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x128, .bf16⟩
  | .hbm, ⟨30, _⟩ => ⟨S1000000x128, .f32⟩
  | .hbm, ⟨31, _⟩ => ⟨S_, .f32⟩
  | .hbm, ⟨32, _⟩ => ⟨S200000x128, .f32⟩
  | .hbm, ⟨33, _⟩ => ⟨S1000000x1, .i32⟩
  | .hbm, ⟨34, _⟩ => ⟨S200000x128, .f32⟩
  | .hbm, ⟨35, _⟩ => ⟨S_, .f32⟩
  | .hbm, ⟨36, _⟩ => ⟨S1000000, .f32⟩
  | .hbm, ⟨37, _⟩ => ⟨S_, .f32⟩
  | .hbm, ⟨38, _⟩ => ⟨S200000, .f32⟩
  | .hbm, ⟨39, _⟩ => ⟨S1000000x1, .i32⟩
  | .hbm, ⟨40, _⟩ => ⟨S200000, .f32⟩
  | .hbm, ⟨41, _⟩ => ⟨S_, .f32⟩
  | .hbm, ⟨42, _⟩ => ⟨S200000, .f32⟩
  | .hbm, ⟨43, _⟩ => ⟨S200000, .f32⟩
  | .hbm, ⟨44, _⟩ => ⟨S_, .f32⟩
  | .hbm, ⟨45, _⟩ => ⟨S200000, .f32⟩
  | .hbm, ⟨46, _⟩ => ⟨S200000, .f32⟩
  | .hbm, ⟨47, _⟩ => ⟨S200000x1, .f32⟩
  | .hbm, ⟨48, _⟩ => ⟨S128x128, .f32⟩
  | .hbm, ⟨49, _⟩ => ⟨S128x128, .f32⟩
  | .hbm, ⟨50, _⟩ => ⟨S1x128, .f32⟩
  | .hbm, ⟨51, _⟩ => ⟨S1x128, .f32⟩
  | .hbm, ⟨52, _⟩ => ⟨S200000x128, .f32⟩
  | .hbm, ⟨53, _⟩ => ⟨S200000x128, .bf16⟩
  | .hbm, ⟨54, _⟩ => ⟨S_, .i32⟩
  | .hbm, ⟨55, _⟩ => ⟨S1000000, .i32⟩
  | .hbm, ⟨56, _⟩ => ⟨S1000000, .i1⟩
  | .hbm, ⟨57, _⟩ => ⟨S_, .i32⟩
  | .hbm, ⟨58, _⟩ => ⟨S1000000, .i32⟩
  | .hbm, ⟨59, _⟩ => ⟨S1000000, .i32⟩
  | .hbm, ⟨60, _⟩ => ⟨S1000000, .i32⟩
  | .hbm, ⟨61, _⟩ => ⟨S1000000x1, .i32⟩
  | .hbm, ⟨62, _⟩ => ⟨S1000000x128, .bf16⟩
  | .hbm, ⟨63, _⟩ => ⟨S1000000x128, .f32⟩
  | .hbm, ⟨64, _⟩ => ⟨S_, .f32⟩
  | .hbm, ⟨65, _⟩ => ⟨S100000x128, .f32⟩
  | .hbm, ⟨66, _⟩ => ⟨S1000000x1, .i32⟩
  | .hbm, ⟨67, _⟩ => ⟨S100000x128, .f32⟩
  | .hbm, ⟨68, _⟩ => ⟨S1x384, .f32⟩
  | .hbm, ⟨69, _⟩ => ⟨S1x384, .f32⟩
  | .hbm, ⟨70, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .bf16⟩
  | .local _ .vmem, ⟨5, _⟩ => ⟨S10000x128, .bf16⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S4000x128, .bf16⟩
  | .local _ .vmem, ⟨20, _⟩ => ⟨S4000x128, .bf16⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S128x384, .f32⟩
  | .local _ .vmem, ⟨26, _⟩ => ⟨S128x384, .f32⟩
  | .local _ .vmem, ⟨27, _⟩ => ⟨S1x384, .f32⟩
  | .local _ .vmem, ⟨28, _⟩ => ⟨S1x384, .f32⟩
  | .local _ .vmem, ⟨29, _⟩ => ⟨S4000x128, .f32⟩
  | .local _ .vmem, ⟨30, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31_0 : Ref sig .tc := ⟨.hbm, 52, rfl⟩
abbrev main_v31_1 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4000x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S128x128_S128x128_1_0 : S128x128.Transposes [1, 0] S128x128
  transposes_S128x256_S256x128_1_0 : S128x256.Transposes [1, 0] S256x128
  transposes_S384x128_S128x384_1_0 : S384x128.Transposes [1, 0] S128x384
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  shapeCasts_S200000_S200000x1 : S200000.ShapeCasts S200000x1
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S384_S1x384 : S384.ShapeCasts S1x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4000x384 : S1x384.Broadcasts S4000x384
  slices_S4000x384_o0_0_S4000x128 : S4000x384.Slices ![0, 0] S4000x128
  slices_S4000x384_o0_128_S4000x128 : S4000x384.Slices ![0, 128] S4000x128
  slices_S4000x384_o0_256_S4000x128 : S4000x384.Slices ![0, 256] S4000x128
  dot_S10000x128_S128x128_S10000x128_1_0_0_1_n_n_wf : DotDims.WF S10000x128 S128x128 S10000x128 [1] [0] [0] [1] [] []
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S4000x128_S128x128_S4000x128_1_0_0_1_n_n_wf : DotDims.WF S4000x128 S128x128 S4000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  dot_S4000x128_S128x384_S4000x384_1_0_0_1_n_n_wf : DotDims.WF S4000x128 S128x384 S4000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S200000x128.size a
  hwx1_1 : ∀ i : grid1.Coords, EltTy.bits .f32 = 32 ∨ (Rect.block (s := S200000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S200000x1.size a
  hwx1_2 : ∀ i : grid1.Coords, EltTy.bits .f32 = 32 ∨ (Rect.block (s := S200000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S200000x128.size a
  hwx1_8 : ∀ i : grid1.Coords, EltTy.bits .f32 = 32 ∨ (Rect.block (s := S200000x128) S4000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S200000x128.size a
  hwx1_9 : ∀ i : grid1.Coords, EltTy.bits .bf16 = 32 ∨ (Rect.block (s := S200000x128) S4000x128.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31_0) S4000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v31_1) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v42) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S1000000 : Shape := ⟨1, ![1000000]⟩
abbrev S128x128 : Shape := ⟨2, ![128, 128]⟩
abbrev S128 : Shape := ⟨1, ![128]⟩
abbrev S128x256 : Shape := ⟨2, ![128, 256]⟩
abbrev S384x128 : Shape := ⟨2, ![384, 128]⟩
abbrev S384 : Shape := ⟨1, ![384]⟩
abbrev S1x128 : Shape := ⟨2, ![1, 128]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S200000x256 : Shape := ⟨2, ![200000, 256]⟩
abbrev S256x128 : Shape := ⟨2, ![256, 128]⟩
abbrev S128x384 : Shape := ⟨2, ![128, 384]⟩
abbrev S100000x384 : Shape := ⟨2, ![100000, 384]⟩
abbrev S1x384 : Shape := ⟨2, ![1, 384]⟩

abbrev nBuf : Space → Nat
  | .hbm => 114
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S1000000, .i32⟩
  | .hbm, ⟨3, _⟩ => ⟨S1000000, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S128x128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S_, .f32⟩
  | .hbm, ⟨29, _⟩ => ⟨S200000x128, .f32⟩
  | .hbm, ⟨30, _⟩ => ⟨S1000000x1, .i32⟩
  | .hbm, ⟨31, _⟩ => ⟨S200000x128, .f32⟩
  | .hbm, ⟨32, _⟩ => ⟨S_, .f32⟩
  | .hbm, ⟨33, _⟩ => ⟨S1000000, .f32⟩
  | .hbm, ⟨34, _⟩ => ⟨S_, .f32⟩
  | .hbm, ⟨35, _⟩ => ⟨S200000, .f32⟩
  | .hbm, ⟨36, _⟩ => ⟨S1000000x1, .i32⟩
  | .hbm, ⟨37, _⟩ => ⟨S200000, .f32⟩
  | .hbm, ⟨38, _⟩ => ⟨S_, .f32⟩
  | .hbm, ⟨39, _⟩ => ⟨S200000, .f32⟩
  | .hbm, ⟨40, _⟩ => ⟨S200000, .f32⟩
  | .hbm, ⟨41, _⟩ => ⟨S200000x1, .f32⟩
  | .hbm, ⟨42, _⟩ => ⟨S200000x128, .f32⟩
  | .hbm, ⟨43, _⟩ => ⟨S200000x128, .f32⟩
  | .hbm, ⟨44, _⟩ => ⟨S200000x256, .f32⟩
  | .hbm, ⟨45, _⟩ => ⟨S256x128, .f32⟩
  | .hbm, ⟨46, _⟩ => ⟨S200000x128, .f32⟩
  | .hbm, ⟨47, _⟩ => ⟨S1x128, .f32⟩
  | .hbm, ⟨48, _⟩ => ⟨S200000x128, .f32⟩
  | .hbm, ⟨49, _⟩ => ⟨S200000x128, .f32⟩
  | .hbm, ⟨50, _⟩ => ⟨S_, .f32⟩
  | .hbm, ⟨51, _⟩ => ⟨S200000x128, .f32⟩
  | .hbm, ⟨52, _⟩ => ⟨S200000x128, .f32⟩
  | .hbm, ⟨53, _⟩ => ⟨S128x128, .f32⟩
  | .hbm, ⟨54, _⟩ => ⟨S200000x128, .f32⟩
  | .hbm, ⟨55, _⟩ => ⟨S1x128, .f32⟩
  | .hbm, ⟨56, _⟩ => ⟨S200000x128, .f32⟩
  | .hbm, ⟨57, _⟩ => ⟨S200000x128, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x128, .f32⟩
  | .hbm, ⟨67, _⟩ => ⟨S_, .f32⟩
  | .hbm, ⟨68, _⟩ => ⟨S100000x128, .f32⟩
  | .hbm, ⟨69, _⟩ => ⟨S1000000x1, .i32⟩
  | .hbm, ⟨70, _⟩ => ⟨S100000x128, .f32⟩
  | .hbm, ⟨71, _⟩ => ⟨S128x384, .f32⟩
  | .hbm, ⟨72, _⟩ => ⟨S100000x384, .f32⟩
  | .hbm, ⟨73, _⟩ => ⟨S1x384, .f32⟩
  | .hbm, ⟨74, _⟩ => ⟨S100000x384, .f32⟩
  | .hbm, ⟨75, _⟩ => ⟨S100000x384, .f32⟩
  | .hbm, ⟨76, _⟩ => ⟨S128x384, .f32⟩
  | .hbm, ⟨77, _⟩ => ⟨S100000x384, .f32⟩
  | .hbm, ⟨78, _⟩ => ⟨S1x384, .f32⟩
  | .hbm, ⟨79, _⟩ => ⟨S100000x384, .f32⟩
  | .hbm, ⟨80, _⟩ => ⟨S100000x384, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S_, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S100000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_4 : Ref sig .tc := ⟨.hbm, 58, rfl⟩
abbrev main_v36 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_7 : Ref sig .tc := ⟨.hbm, 90, rfl⟩
abbrev main_v65 : Ref sig .tc := ⟨.hbm, 91, rfl⟩
abbrev main_v66 : Ref sig .tc := ⟨.hbm, 92, rfl⟩
abbrev main_cst_8 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_9 : Ref sig .tc := ⟨.hbm, 99, rfl⟩
abbrev main_v72 : Ref sig .tc := ⟨.hbm, 100, rfl⟩
abbrev main_v73 : Ref sig .tc := ⟨.hbm, 101, rfl⟩
abbrev main_cst_10 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_11 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  transposes_S128x256_S256x128_1_0 : S128x256.Transposes [1, 0] S256x128
  bcast_S1x128_S200000x128_0_1 : S1x128.BroadcastsInDim S200000x128 (![0, 1] : Fin 2 → Fin S200000x128.rank)
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x256_S256x128_S200000x128_1_0_0_1_n_n_wf : DotDims.WF S200000x256 S256x128 S200000x128 [1] [0] [0] [1] [] []
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x384_S100000x384_1_0_0_1_n_n_wf : DotDims.WF S100000x128 S128x384 S100000x384 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.KernelRun.lean ====
/-
  The kernel program's run with its results named. Every weakly fair execution of the program — three regions with
  stretches of host operations between them — terminates, and in the final state every buffer holds what the fold of
  boundary contents through the program says it holds: the two results as well as the arguments. The result of the last
  region is what its write-backs leave; the first result of the middle region is untouched by everything that follows it.
-/
import proofs.«108912_j90022514524502_2_alg».proof.Proof.Gen.KernelIdeal.Frame

set_option maxRecDepth 16384

noncomputable section

namespace Cert.KernelIdeal.RunValues

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results end at the contents the fold through the program assigns them after the last region, and
    the arguments end as launched. -/
theorem run : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_v31_0) = W6 m ρ c (Proc.devRef .tc main_v31_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       h c _ (mem_uc main_v31_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.RunValues

end
-- ==== Proof.Spec.lean ====
/-
  The stages of the computation as whole-array functions on the extended reals, each written in the host's
  operations: the projection x·W + b of every object row; the wrap-around of negative edge indices; the sum of the
  gathered rows over the edges of each event and the clamped edge count; the two-layer perceptron on each event row
  joined with its mean message; the sum of the gathered impulses over the edges of each object; and the gated
  recurrent update of every object row. A stage takes the weight matrices already transposed and the bias vectors
  already laid out as one row, so that it says nothing about how those were prepared.
-/
import proofs.«108912_j90022514524502_2_alg».proof.Proof.Gen.ReferenceIdeal
import Idealize.ShloMosaic.PureOps.Ideal

noncomputable section

namespace Cert.Spec

open Cert.ReferenceIdeal Cert.ReferenceIdeal.Gen Idealize.ShloMosaic

/-- A float array of a given shape, on the extended reals. -/
abbrev Arr (S : Shape) : Type := FVec Ideal S .f32
/-- An array of 32-bit integers of a given shape. -/
abbrev IArr (S : Shape) : Type := IVec S 32

/-- Every row of x times the matrix wt, plus the row brow: x·wt + b. -/
def projRows (x : Arr S100000x128) (wt : Arr S128x128) (brow : Arr S1x128) : Arr S100000x128 :=
  addf (Host.dotGeneral dot_S100000x128_S128x128_S100000x128_1_0_0_1_n_n none x wt) (broadcastInDim S100000x128 ![0, 1] bcast_S1x128_S100000x128_0_1 brow)

/-- An index vector with its negative entries moved up by n, as a column of start indices. -/
def idxCol (n : BitVec 32) (i : IArr S1000000) : IArr S1000000x1 :=
  broadcastInDim S1000000x1 ![0] bcast_S1000000_S1000000x1_0 (select (cmpi .slt i (broadcastInDim S1000000 ![] bcast_S_S1000000 (constantI S_ 32 0#32))) (addi i (broadcastInDim S1000000 ![] bcast_S_S1000000 (constantI S_ 32 n))) i)

/-- For each event, the sum over its edges of the projected row of the edge's object. -/
def summed (h : Arr S100000x128) (eidx oidx : IArr S1000000) : Arr S200000x128 :=
  Host.scatterAdd scatter_S200000x128_S1000000x1_S1000000x128_1_0_0_1 (broadcastInDim S200000x128 ![] bcast_S_S200000x128 (constant S_ .f32 0x00000000#32)) (broadcastInDim S1000000x1 ![0] bcast_S1000000_S1000000x1_0 eidx) (Host.gather gather_S100000x128_S1000000x1_S1000000x128_1_0_n_n_0_1_1128 h (idxCol 100000#32 oidx))

/-- For each event, the larger of its number of edges and one. -/
def cntMax (eidx : IArr S1000000) : Arr S200000 :=
  maximumf (Host.scatterAdd scatter_S200000_S1000000x1_S1000000_n_0_0_1 (broadcastInDim S200000 ![] bcast_S_S200000 (constant S_ .f32 0x00000000#32)) (broadcastInDim S1000000x1 ![0] bcast_S1000000_S1000000x1_0 eidx) (broadcastInDim S1000000 ![] bcast_S_S1000000 (constant S_ .f32 0x3F800000#32))) (broadcastInDim S200000 ![] bcast_S_S200000 (constant S_ .f32 0x3F800000#32))

/-- The perceptron on each event row: with c = s / d (row r of s divided by d r), relu([evt, c]·w1t + b1)·w2t + b2. -/
def mlpRows (evt s : Arr S200000x128) (d : Arr S200000) (w1t : Arr S256x128) (b1row : Arr S1x128) (w2t : Arr S128x128) (b2row : Arr S1x128) : Arr S200000x128 :=
  addf (Host.dotGeneral dot_S200000x128_S128x128_S200000x128_1_0_0_1_n_n none (maximumf (addf (Host.dotGeneral dot_S200000x256_S256x128_S200000x128_1_0_0_1_n_n none (concatenate S200000x256 1 [⟨S200000x128, evt⟩, ⟨S200000x128, (Host.divf s (broadcastInDim S200000x128 ![0, 1] bcast_S200000x1_S200000x128_0_1 (broadcastInDim S200000x1 ![0] bcast_S200000_S200000x1_0 d)))⟩] concatenates_S200000x128_S200000x128_S200000x256_d1) w1t) (broadcastInDim S200000x128 ![0, 1] bcast_S1x128_S200000x128_0_1 b1row)) (broadcastInDim S200000x128 ![] bcast_S_S200000x128 (constant S_ .f32 0x00000000#32))) w2t) (broadcastInDim S200000x128 ![0, 1] bcast_S1x128_S200000x128_0_1 b2row)

/-- For each object, the sum over its edges of the impulse row of the edge's event. -/
def totalEffect (himp : Arr S200000x128) (eidx oidx : IArr S1000000) : Arr S100000x128 :=
  Host.scatterAdd scatter_S100000x128_S1000000x1_S1000000x128_1_0_0_1 (broadcastInDim S100000x128 ![] bcast_S_S100000x128 (constant S_ .f32 0x00000000#32)) (broadcastInDim S1000000x1 ![0] bcast_S1000000_S1000000x1_0 oidx) (Host.gather gather_S200000x128_S1000000x1_S1000000x128_1_0_n_n_0_1_1128 himp (idxCol 200000#32 eidx))

/-- The three gate pre-activations of every row, side by side: x·wt + b, 384 columns. -/
def gates (x : Arr S100000x128) (wt : Arr S128x384) (brow : Arr S1x384) : Arr S100000x384 :=
  addf (Host.dotGeneral dot_S100000x128_S128x384_S100000x384_1_0_0_1_n_n none x wt) (broadcastInDim S100000x384 ![0, 1] bcast_S1x384_S100000x384_0_1 brow)

/-- The array of ones. -/
def ones : Arr S100000x128 := broadcastInDim S100000x128 ![] bcast_S_S100000x128 (constant S_ .f32 0x3F800000#32)

/-- The logistic function entry by entry, spelt 1 / (1 + exp (−a)). -/
def sigm (a : Arr S100000x128) : Arr S100000x128 := Host.divf ones (addf ones (Host.exp (Host.negf a)))

/-- The gated recurrent update of every row: with gi = te·wiht + bih and gh = h·whht + bhh cut into thirds (r, z, n),
    r = σ(gi_r + gh_r), z = σ(gi_z + gh_z), n = tanh(gi_n + r·gh_n), the result is (1 − z)·n + z·h. -/
def gruRows (te h : Arr S100000x128) (wiht whht : Arr S128x384) (bihrow bhhrow : Arr S1x384) : Arr S100000x128 :=
  addf (mulf (subf ones (sigm (addf (extractStridedSlice S100000x128 ![0, 128] (gates te wiht bihrow) slices_S100000x384_S100000x128_0_128) (extractStridedSlice S100000x128 ![0, 128] (gates h whht bhhrow) slices_S100000x384_S100000x128_0_128)))) (Host.tanh (addf (extractStridedSlice S100000x128 ![0, 256] (gates te wiht bihrow) slices_S100000x384_S100000x128_0_256) (mulf (sigm (addf (extractStridedSlice S100000x128 ![0, 0] (gates te wiht bihrow) slices_S100000x384_S100000x128_0_0) (extractStridedSlice S100000x128 ![0, 0] (gates h whht bhhrow) slices_S100000x384_S100000x128_0_0))) (extractStridedSlice S100000x128 ![0, 256] (gates h whht bhhrow) slices_S100000x384_S100000x128_0_256))))) (mulf (sigm (addf (extractStridedSlice S100000x128 ![0, 128] (gates te wiht bihrow) slices_S100000x384_S100000x128_0_128) (extractStridedSlice S100000x128 ![0, 128] (gates h whht bhhrow) slices_S100000x384_S100000x128_0_128))) h)

end Cert.Spec

end
-- ==== Proof.SpecWhole.lean ====
/-
  The two results of the whole computation as functions of the fourteen argument arrays, composed of the stages: the
  impulse of every event row, and the updated state of every object row.
-/
import proofs.«108912_j90022514524502_2_alg».proof.Proof.Spec

noncomputable section

namespace Cert.Spec

open Cert.ReferenceIdeal Cert.ReferenceIdeal.Gen Idealize.ShloMosaic

/-- A bias vector of 128 entries as one row. -/
def row128 (b : Arr S128) : Arr S1x128 := broadcastInDim S1x128 ![1] bcast_S128_S1x128_1 b
/-- A bias vector of 384 entries as one row. -/
def row384 (b : Arr S384) : Arr S1x384 := broadcastInDim S1x384 ![1] bcast_S384_S1x384_1 b

/-- The impulse of every event row: the perceptron applied to the event's features joined with the mean, over the
    event's edges, of the projected object rows. -/
def out1 (evt : Arr S200000x128) (obj : Arr S100000x128) (eidx oidx : IArr S1000000)
    (wa : Arr S128x128) (ba : Arr S128) (w1 : Arr S128x256) (b1 : Arr S128) (w2 : Arr S128x128) (b2 : Arr S128) :
    Arr S200000x128 :=
  mlpRows evt
    (summed (projRows obj (transpose S128x128 [1, 0] wa transposes_S128x128_S128x128_1_0) (row128 ba)) eidx oidx)
    (cntMax eidx) (transpose S256x128 [1, 0] w1 transposes_S128x256_S256x128_1_0) (row128 b1)
    (transpose S128x128 [1, 0] w2 transposes_S128x128_S128x128_1_0) (row128 b2)

/-- The updated state of every object row: the gated recurrent cell applied to the sum, over the object's edges, of
    the events' impulses, and to the object's state. -/
def out0 (evt : Arr S200000x128) (obj : Arr S100000x128) (eidx oidx : IArr S1000000)
    (wa : Arr S128x128) (ba : Arr S128) (w1 : Arr S128x256) (b1 : Arr S128) (w2 : Arr S128x128) (b2 : Arr S128)
    (wih whh : Arr S384x128) (bih bhh : Arr S384) : Arr S100000x128 :=
  gruRows (totalEffect (out1 evt obj eidx oidx wa ba w1 b1 w2 b2) eidx oidx) obj
    (transpose S128x384 [1, 0] wih transposes_S384x128_S128x384_1_0)
    (transpose S128x384 [1, 0] whh transposes_S384x128_S128x384_1_0) (row384 bih) (row384 bhh)

end Cert.Spec

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«108912_j90022514524502_2_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.LibRowBlock.lean ====
/-
  Rows t·R, …, t·R + R − 1 of a [B, n] array form an [R, n] array. A program that works on each row by itself —
  entrywise arithmetic, a bias row added to every row, a matrix product with a fixed right factor, a run of columns
  cut out, arrays joined along their columns — produces, from those R rows, the same R rows of what it produces from
  the whole array. This file states that fact one operation at a time, on the extended reals, with the whole-array
  side written in the host's operations and the R-row side in the vector unit's, so that a kernel working through an
  array R rows at a time can be compared with a program working on the whole array at once.
  "IsRows t x' x" says: x' is rows t·R … t·R + R − 1 of x. The float formats of the two sides are free (on the
  extended reals a change of format is the identity), so a cast on one side needs no lemma of its own.
-/
import proofs.«108912_j90022514524502_2_alg».proof.Proof.LibPlainProduct
import Idealize.ShloMosaic.Lib.Pipeline.Value
import Idealize.ShloMosaic.Lib.ValueLayout
import Idealize.ShloMosaic.Lib.IdealHost

noncomputable section

open scoped BigOperators

namespace Idealize.ShloMosaic.RowBlock

open Idealize.ShloMosaic Idealize.ShloMosaic.ValueIdx

variable {B R : ℕ}

/-- Row p of the t-th group of R rows, as a row of the whole array. -/
abbrev row (t : ℕ) (h : t * R + R ≤ B) (p : Fin R) : Fin B := ⟨t * R + p.val, by have := p.isLt; omega⟩

/-- x' is rows t·R … t·R + R − 1 of x. -/
def IsRows {n : ℕ} (t : ℕ) (h : t * R + R ≤ B) (x' : (⟨2, ![R, n]⟩ : Shape).Idx → EReal)
    (x : (⟨2, ![B, n]⟩ : Shape).Idx → EReal) : Prop :=
  ∀ (p : Fin R) (q : Fin n), x' (ix2 p q) = x (ix2 (row t h p) q)

variable {t : ℕ} {h : t * R + R ≤ B}

/-- The rows themselves, as an array. -/
def rows {n : ℕ} (t : ℕ) (h : t * R + R ≤ B) (x : (⟨2, ![B, n]⟩ : Shape).Idx → EReal) :
    (⟨2, ![R, n]⟩ : Shape).Idx → EReal :=
  fun j => x (ix2 (row t h ⟨(j 0).val, idx2_lt0 j⟩) ⟨(j 1).val, idx2_lt1 j⟩)

theorem isRows_rows {n : ℕ} (x : (⟨2, ![B, n]⟩ : Shape).Idx → EReal) : IsRows t h (rows t h x) x :=
  fun _ _ => rfl

theorem IsRows.eq_rows {n : ℕ} {x' : (⟨2, ![R, n]⟩ : Shape).Idx → EReal} {x : (⟨2, ![B, n]⟩ : Shape).Idx → EReal}
    (hx : IsRows t h x' x) : x' = rows t h x := by
  funext j
  obtain ⟨p, q, rfl⟩ : ∃ (p : Fin R) (q : Fin n), j = ix2 p q := ⟨j 0, j 1, eq_ix2 j⟩
  exact hx p q

/-- A cast of the R rows to their own shape changes nothing. -/
theorem IsRows.castSelf {n : ℕ} {x' : (⟨2, ![R, n]⟩ : Shape).Idx → EReal} {x : (⟨2, ![B, n]⟩ : Shape).Idx → EReal}
    (hc : (⟨2, ![R, n]⟩ : Shape).ShapeCasts ⟨2, ![R, n]⟩) (hx : IsRows t h x' x) :
    IsRows t h (shapeCast ⟨2, ![R, n]⟩ x' hc) x := by
  rw [shapeCast_self]; exact hx

/-- A weight matrix cast to its own shape still agrees entry by entry. -/
theorem castSelf_entries {K N : ℕ} {w' w : (⟨2, ![K, N]⟩ : Shape).Idx → EReal}
    (hc : (⟨2, ![K, N]⟩ : Shape).ShapeCasts ⟨2, ![K, N]⟩) (hw : ∀ (k : Fin K) (q : Fin N), w' (ix2 k q) = w (ix2 k q)) :
    ∀ (k : Fin K) (q : Fin N), shapeCast ⟨2, ![K, N]⟩ w' hc (ix2 k q) = w (ix2 k q) := by
  rw [shapeCast_self]; exact hw

/-! ## Entrywise operations -/

section Entrywise

variable {n : ℕ} {φ φ' : FTy}
variable {a' b' : FVec Ideal ⟨2, ![R, n]⟩ φ'} {a b : FVec Ideal ⟨2, ![B, n]⟩ φ}

theorem IsRows.addf (ha : IsRows t h a' a) (hb : IsRows t h b' b) : IsRows t h (addf a' b') (addf a b) :=
  fun p q => congrArg₂ (· + ·) (ha p q) (hb p q)

theorem IsRows.subf (ha : IsRows t h a' a) (hb : IsRows t h b' b) : IsRows t h (subf a' b') (subf a b) :=
  fun p q => congrArg₂ (· - ·) (ha p q) (hb p q)

theorem IsRows.mulf (ha : IsRows t h a' a) (hb : IsRows t h b' b) : IsRows t h (mulf a' b') (mulf a b) :=
  fun p q => congrArg₂ (· * ·) (ha p q) (hb p q)

theorem IsRows.maximumf (ha : IsRows t h a' a) (hb : IsRows t h b' b) : IsRows t h (maximumf a' b') (maximumf a b) :=
  fun p q => congrArg₂ max (ha p q) (hb p q)

/-- A change of float format on the R-row side only. -/
theorem IsRows.truncf {ψ : FTy} {x : (⟨2, ![B, n]⟩ : Shape).Idx → EReal} (hψ : ψ.bits < φ'.bits) (ha : IsRows t h a' x) :
    IsRows t h (truncf ψ a' hψ) x :=
  fun p q => ha p q

/-- The vector unit's cosine against the host's. -/
theorem IsRows.cos (ha : IsRows t h a' a) : IsRows t h (cos a') (Host.cos a) :=
  fun p q => congrArg Ideal.cos (ha p q)

/-- The vector unit's hyperbolic tangent against the host's. -/
theorem IsRows.tanh (ha : IsRows t h a' a) : IsRows t h (tanh a') (Host.tanh a) :=
  fun p q => congrArg Ideal.tanh (ha p q)

/-- The logistic function against 1 / (1 + exp (−x)) spelt out in the host's operations: on the extended reals the
    logistic function is that quotient by definition, its values at −∞ and +∞ included. -/
theorem IsRows.logistic {one₁ one₂ : FVec Ideal ⟨2, ![B, n]⟩ φ} (h₁ : ∀ i, one₁ i = 1) (h₂ : ∀ i, one₂ i = 1)
    (ha : IsRows t h a' a) :
    IsRows t h (logistic a') (Host.divf one₁ (Idealize.ShloMosaic.addf one₂ (Host.exp (Host.negf a)))) := by
  intro p q
  show Ideal.logistic (a' (ix2 p q)) = Ideal.div (one₁ _) (one₂ _ + Ideal.exp (-(a _)))
  rw [h₁, h₂, ha p q]
  rfl

end Entrywise

/-! ## Constants and broadcasts -/

section Broadcasts

variable {n : ℕ}

/-- A scalar constant spread over the whole array against the same scalar spread over R rows. -/
theorem IsRows.const {φ : FTy} (c : BitVec φ.bits) (hb : (⟨0, ![]⟩ : Shape).BroadcastsInDim ⟨2, ![B, n]⟩ ![]) :
    IsRows t h (broadcast ⟨2, ![R, n]⟩ (Scalar.ofBits (F := Ideal) φ c))
      (broadcastInDim ⟨2, ![B, n]⟩ ![] hb (constant (F := Ideal) ⟨0, ![]⟩ φ c)) := by
  intro p q
  exact (broadcastInDim_apply ![] hb (constant (F := Ideal) ⟨0, ![]⟩ φ c) (ix2 (row t h p) q) ix0 (fun a => a.elim0)).symm

/-- The value of such a constant at any entry. -/
theorem const_apply {φ : FTy} (c : BitVec φ.bits) (hb : (⟨0, ![]⟩ : Shape).BroadcastsInDim ⟨2, ![B, n]⟩ ![])
    (i : (⟨2, ![B, n]⟩ : Shape).Idx) :
    broadcastInDim ⟨2, ![B, n]⟩ ![] hb (constant (F := Ideal) ⟨0, ![]⟩ φ c) i = Ideal.ofBits φ c :=
  broadcastInDim_apply ![] hb (constant (F := Ideal) ⟨0, ![]⟩ φ c) i ix0 (fun a => a.elim0)

/-- One row [1, n] repeated down the whole array (the host's way) against the same row repeated down R rows (the
    vector unit's way). -/
theorem IsRows.rowBroadcast (w : (⟨2, ![1, n]⟩ : Shape).Idx → EReal)
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ w hR) (broadcastInDim ⟨2, ![B, n]⟩ ![0, 1] hB w) := by
  intro p q
  rw [broadcastTo_1b_ab_apply w hR p q]
  refine (broadcastInDim_apply ![0, 1] hB w (ix2 (row t h p) q) (ix2 (0 : Fin 1) q) fun ax => ?_).symm
  match ax with
  | ⟨0, _⟩ => rfl
  | ⟨1, _⟩ =>
    show q.val = if n = 1 then 0 else q.val
    split
    · have := q.isLt; omega
    · rfl

/-- A vector [n] made a row [1, n]: by a cast (the vector unit's way) or by a broadcast along the new axis (the
    host's way), the same row. -/
theorem rowOfVector (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext j
  obtain ⟨u, q, rfl⟩ : ∃ (u : Fin 1) (q : Fin n), j = ix2 u q := ⟨j 0, j 1, eq_ix2 j⟩
  rw [shapeCast_a_1a_apply v hc u q]
  refine (broadcastInDim_apply ![1] hb v (ix2 u q) (ix1 q) fun ax => ?_).symm
  match ax with
  | ⟨0, _⟩ =>
    show q.val = if n = 1 then 0 else q.val
    split
    · have := q.isLt; omega
    · rfl

/-- A bias vector [n] added to every row: made a row and repeated down the whole array by two host broadcasts, against
    cast to a row and repeated down R rows by the vector unit. -/
theorem IsRows.bias (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1])
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ (shapeCast ⟨2, ![1, n]⟩ v hc) hR)
      (broadcastInDim ⟨2, ![B, n]⟩ ![0, 1] hB (broadcastInDim ⟨2, ![1, n]⟩ ![1] hb v)) := by
  rw [rowOfVector v hc hb]
  exact IsRows.rowBroadcast _ hB hR

/-- One column [B, 1] repeated across n columns (the host's way) against its R rows repeated across n columns (the
    vector unit's way). -/
theorem IsRows.colBroadcast {y' : (⟨2, ![R, 1]⟩ : Shape).Idx → EReal} {y : (⟨2, ![B, 1]⟩ : Shape).Idx → EReal}
    (hy : IsRows t h y' y)
    (hB : (⟨2, ![B, 1]⟩ : Shape).BroadcastsInDim ⟨2, ![B, n]⟩ ![0, 1])
    (hR : (⟨2, ![R, 1]⟩ : Shape).Broadcasts ⟨2, ![R, n]⟩) :
    IsRows t h (broadcastTo ⟨2, ![R, n]⟩ y' hR) (broadcastInDim ⟨2, ![B, n]⟩ ![0, 1] hB y) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  have e2 : broadcastInDim ⟨2, ![B, n]⟩ ![0, 1] hB y (ix2 (row t h p) q) = y (ix2 (row t h p) (0 : Fin 1)) := by
    refine broadcastInDim_apply ![0, 1] hB y (ix2 (row t h p) q) (ix2 (row t h p) (0 : Fin 1)) fun ax => ?_
    match ax with
    | ⟨0, _⟩ =>
      show t * R + p.val = if B = 1 then 0 else t * R + p.val
      split
      · have := p.isLt; omega
      · rfl
    | ⟨1, _⟩ => rfl
  rw [e1, e2]
  exact hy p 0

end Broadcasts

/-! ## A matrix product with a fixed right factor -/

/-- The plain product [B, K] × [K, N] on the host against the matrix unit's product of the R rows with the same right
    factor into a zero accumulator: entry (p, q) of either is the sum over k of (row's entry k) · w(k, q). -/
theorem IsRows.dot {K N : ℕ} {φ₁ φ₂ φ₁' φ₂' : FTy}
    {l' : FVec Ideal ⟨2, ![R, K]⟩ φ₁'} {l : FVec Ideal ⟨2, ![B, K]⟩ φ₁}
    {w' : FVec Ideal ⟨2, ![K, N]⟩ φ₂'} {w : FVec Ideal ⟨2, ![K, N]⟩ φ₂}
    (hl : IsRows t h l' l) (hw : ∀ (k : Fin K) (q : Fin N), w' (ix2 k q) = w (ix2 k q)) :
    IsRows t h (matmul (DotDims.plain R K N) none l' w' (constant ⟨2, ![R, N]⟩ .f32 0x00000000#32))
      (Host.dotGeneral (DotDims.plain B K N) none l w) := by
  intro p q
  rw [PlainProduct.matmul_zero_at R K N l' w' p q, PlainProduct.dotGeneral_at B K N l w (row t h p) q]
  exact Finset.sum_congr rfl fun k _ => congrArg₂ (· * ·) (hl p k) (hw k q)

/-! ## Columns cut out and arrays joined along their columns -/

/-- Columns o … o + m − 1 cut out of the whole array against the same columns cut out of the R rows. -/
theorem IsRows.slice {n m : ℕ} (o : ℕ) {x' : (⟨2, ![R, n]⟩ : Shape).Idx → EReal} {x : (⟨2, ![B, n]⟩ : Shape).Idx → EReal}
    (hx : IsRows t h x' x)
    (hB : (⟨2, ![B, n]⟩ : Shape).Slices ![0, o] ⟨2, ![B, m]⟩) (hR : (⟨2, ![R, n]⟩ : Shape).Slices ![0, o] ⟨2, ![R, m]⟩)
    (hom : o + m ≤ n) :
    IsRows t h (extractStridedSlice ⟨2, ![R, m]⟩ ![0, o] x' hR) (extractStridedSlice ⟨2, ![B, m]⟩ ![0, o] x hB) := by
  intro p q
  have hk : o + q.val < n := by have := q.isLt; omega
  rw [slice2_axis1_apply o x' hR p q ⟨o + q.val, hk⟩ rfl,
    slice2_axis1_apply o x hB (row t h p) q ⟨o + q.val, hk⟩ rfl]
  exact hx p ⟨o + q.val, hk⟩

/-! ### Arrays of rows joined along their columns, read at an entry -/

section Joined

variable {α : Type}

private theorem off_axis {a m N : ℕ} (r : Fin a) (c : Fin N) (c' : Fin m)
    (b : Fin (⟨2, ![a, m]⟩ : Shape).rank) (hb : b.cast (rfl : (⟨2, ![a, m]⟩ : Shape).rank = (⟨2, ![a, N]⟩ : Shape).rank) ≠ 1) :
    ((ix2 r c' : (⟨2, ![a, m]⟩ : Shape).Idx) b).val = ((ix2 r c : (⟨2, ![a, N]⟩ : Shape).Idx) (b.cast rfl)).val := by
  match b with
  | ⟨0, _⟩ => rfl
  | ⟨1, _⟩ => exact absurd rfl hb

variable {a n₁ n₂ n₃ n₄ N : ℕ}

/-- Four arrays joined: a column in the first stretch. -/
theorem joined4_first (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₁ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    0 (by show (0 : ℕ) < 4; omega) ⟨2, ![a, n₁]⟩ x₁ rfl rfl 0 rfl (ix2 r c') (off_axis r c c')
    (by show 0 + c'.val = c.val; omega)

/-- Four arrays joined: a column in the second stretch. -/
theorem joined4_second (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₂ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    1 (by show (1 : ℕ) < 4; omega) ⟨2, ![a, n₂]⟩ x₂ rfl rfl (n₁ + 0) rfl (ix2 r c') (off_axis r c c')
    (by show n₁ + 0 + c'.val = c.val; omega)

/-- Four arrays joined: a column in the third stretch. -/
theorem joined4_third (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₃) (e : n₁ + n₂ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₃ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    2 (by show (2 : ℕ) < 4; omega) ⟨2, ![a, n₃]⟩ x₃ rfl rfl (n₁ + (n₂ + 0)) rfl (ix2 r c') (off_axis r c c')
    (by show n₁ + (n₂ + 0) + c'.val = c.val; omega)

/-- Four arrays joined: a column in the fourth stretch. -/
theorem joined4_fourth (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₄) (e : n₁ + n₂ + n₃ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₄ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    3 (by show (3 : ℕ) < 4; omega) ⟨2, ![a, n₄]⟩ x₄ rfl rfl (n₁ + (n₂ + (n₃ + 0))) rfl (ix2 r c') (off_axis r c c')
    (by show n₁ + (n₂ + (n₃ + 0)) + c'.val = c.val; omega)

/-- Two arrays joined: a column in the first stretch. -/
theorem joined2_first (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩] hc (ix2 r c) = x₁ (ix2 r c') :=
  concatenate_apply_piece 1 [⟨⟨2, ![a, n₁]⟩, x₁⟩, ⟨⟨2, ![a, n₂]⟩, x₂⟩] hc (ix2 r c)
    0 (by show (0 : ℕ) < 2; omega) ⟨2, ![a, n₁]⟩ x₁ rfl rfl 0 rfl (ix2 r c') (off_axis r c c')
    (by show 0 + c'.val = c.val; omega)

/-- Two arrays joined: a column in the second stretch. -/
theorem joined2_second (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩] hc (ix2 r c) = x₂ (ix2 r c') :=
  concatenate_apply_piece 1 [⟨⟨2, ![a, n₁]⟩, x₁⟩, ⟨⟨2, ![a, n₂]⟩, x₂⟩] hc (ix2 r c)
    1 (by show (1 : ℕ) < 2; omega) ⟨2, ![a, n₂]⟩ x₂ rfl rfl (n₁ + 0) rfl (ix2 r c') (off_axis r c c')
    (by show n₁ + 0 + c'.val = c.val; omega)

end Joined

/-- Four arrays joined along their columns: the R rows of the joined array are the join of the R rows of each. -/
theorem IsRows.joined4 {n₁ n₂ n₃ n₄ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    {x₃' : (⟨2, ![R, n₃]⟩ : Shape).Idx → EReal} {x₃ : (⟨2, ![B, n₃]⟩ : Shape).Idx → EReal}
    {x₄' : (⟨2, ![R, n₄]⟩ : Shape).Idx → EReal} {x₄ : (⟨2, ![B, n₄]⟩ : Shape).Idx → EReal}
    (h₁ : IsRows t h x₁' x₁) (h₂ : IsRows t h x₂' x₂) (h₃ : IsRows t h x₃' x₃) (h₄ : IsRows t h x₄' x₄)
    (hN : n₁ + n₂ + n₃ + n₄ = N)
    (hR : Shape.Concatenates [⟨2, ![R, n₁]⟩, ⟨2, ![R, n₂]⟩, ⟨2, ![R, n₃]⟩, ⟨2, ![R, n₄]⟩] ⟨2, ![R, N]⟩ 1)
    (hB : Shape.Concatenates [⟨2, ![B, n₁]⟩, ⟨2, ![B, n₂]⟩, ⟨2, ![B, n₃]⟩, ⟨2, ![B, n₄]⟩] ⟨2, ![B, N]⟩ 1) :
    IsRows t h
      (concatenate ⟨2, ![R, N]⟩ 1 [⟨⟨2, ![R, n₁]⟩, x₁'⟩, ⟨⟨2, ![R, n₂]⟩, x₂'⟩, ⟨⟨2, ![R, n₃]⟩, x₃'⟩, ⟨⟨2, ![R, n₄]⟩, x₄'⟩] hR)
      (concatenate ⟨2, ![B, N]⟩ 1 [⟨⟨2, ![B, n₁]⟩, x₁⟩, ⟨⟨2, ![B, n₂]⟩, x₂⟩, ⟨⟨2, ![B, n₃]⟩, x₃⟩, ⟨⟨2, ![B, n₄]⟩, x₄⟩] hB) := by
  intro p q
  have hq := q.isLt
  by_cases c₁ : q.val < n₁
  · rw [joined4_first x₁' x₂' x₃' x₄' hR p q ⟨q.val, c₁⟩ rfl, joined4_first x₁ x₂ x₃ x₄ hB (row t h p) q ⟨q.val, c₁⟩ rfl]
    exact h₁ p _
  · by_cases c₂ : q.val < n₁ + n₂
    · have k : q.val - n₁ < n₂ := by omega
      rw [joined4_second x₁' x₂' x₃' x₄' hR p q ⟨q.val - n₁, k⟩ (by show n₁ + (q.val - n₁) = q.val; omega),
        joined4_second x₁ x₂ x₃ x₄ hB (row t h p) q ⟨q.val - n₁, k⟩ (by show n₁ + (q.val - n₁) = q.val; omega)]
      exact h₂ p _
    · by_cases c₃ : q.val < n₁ + n₂ + n₃
      · have k : q.val - (n₁ + n₂) < n₃ := by omega
        rw [joined4_third x₁' x₂' x₃' x₄' hR p q ⟨q.val - (n₁ + n₂), k⟩ (by show n₁ + n₂ + (q.val - (n₁ + n₂)) = q.val; omega),
          joined4_third x₁ x₂ x₃ x₄ hB (row t h p) q ⟨q.val - (n₁ + n₂), k⟩ (by show n₁ + n₂ + (q.val - (n₁ + n₂)) = q.val; omega)]
        exact h₃ p _
      · have k : q.val - (n₁ + n₂ + n₃) < n₄ := by omega
        rw [joined4_fourth x₁' x₂' x₃' x₄' hR p q ⟨q.val - (n₁ + n₂ + n₃), k⟩ (by show n₁ + n₂ + n₃ + (q.val - (n₁ + n₂ + n₃)) = q.val; omega),
          joined4_fourth x₁ x₂ x₃ x₄ hB (row t h p) q ⟨q.val - (n₁ + n₂ + n₃), k⟩ (by show n₁ + n₂ + n₃ + (q.val - (n₁ + n₂ + n₃)) = q.val; omega)]
        exact h₄ p _

/-- Two arrays joined along their columns: the R rows of the joined array are the join of the R rows of each. -/
theorem IsRows.joined2 {n₁ n₂ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    (h₁ : IsRows t h x₁' x₁) (h₂ : IsRows t h x₂' x₂) (hN : n₁ + n₂ = N)
    (hR : Shape.Concatenates [⟨2, ![R, n₁]⟩, ⟨2, ![R, n₂]⟩] ⟨2, ![R, N]⟩ 1)
    (hB : Shape.Concatenates [⟨2, ![B, n₁]⟩, ⟨2, ![B, n₂]⟩] ⟨2, ![B, N]⟩ 1) :
    IsRows t h (concatenate ⟨2, ![R, N]⟩ 1 [⟨⟨2, ![R, n₁]⟩, x₁'⟩, ⟨⟨2, ![R, n₂]⟩, x₂'⟩] hR)
      (concatenate ⟨2, ![B, N]⟩ 1 [⟨⟨2, ![B, n₁]⟩, x₁⟩, ⟨⟨2, ![B, n₂]⟩, x₂⟩] hB) := by
  intro p q
  have hq := q.isLt
  by_cases c₁ : q.val < n₁
  · rw [joined2_first x₁' x₂' hR p q ⟨q.val, c₁⟩ rfl, joined2_first x₁ x₂ hB (row t h p) q ⟨q.val, c₁⟩ rfl]
    exact h₁ p _
  · have k : q.val - n₁ < n₂ := by omega
    rw [joined2_second x₁' x₂' hR p q ⟨q.val - n₁, k⟩ (by show n₁ + (q.val - n₁) = q.val; omega),
      joined2_second x₁ x₂ hB (row t h p) q ⟨q.val - n₁, k⟩ (by show n₁ + (q.val - n₁) = q.val; omega)]
    exact h₂ p _

/-! ## Two arrays as the two slabs of a rank-3 array -/

section Slabs

variable {α : Type} {a n : ℕ}

/-- Two [a, n] arrays as the two slabs of a [2, a, n] array. -/
def slabs (f g : (⟨2, ![a, n]⟩ : Shape).Idx → α) : (⟨3, ![2, a, n]⟩ : Shape).Idx → α :=
  fun y => if (y 0).val = 0 then f (ix2 (⟨(y 1).val, (y 1).isLt⟩ : Fin a) (⟨(y 2).val, (y 2).isLt⟩ : Fin n))
    else g (ix2 (⟨(y 1).val, (y 1).isLt⟩ : Fin a) (⟨(y 2).val, (y 2).isLt⟩ : Fin n))

theorem slabs_zero (f g : (⟨2, ![a, n]⟩ : Shape).Idx → α) (y : (⟨3, ![2, a, n]⟩ : Shape).Idx)
    (p : Fin a) (q : Fin n) (e0 : (y 0).val = 0) (e1 : (y 1).val = p.val) (e2 : (y 2).val = q.val) :
    slabs f g y = f (ix2 p q) := by
  unfold slabs
  rw [if_pos e0]
  exact congrArg f (funext fun b => match b with | ⟨0, _⟩ => Fin.ext e1 | ⟨1, _⟩ => Fin.ext e2)

theorem slabs_one (f g : (⟨2, ![a, n]⟩ : Shape).Idx → α) (y : (⟨3, ![2, a, n]⟩ : Shape).Idx)
    (p : Fin a) (q : Fin n) (e0 : (y 0).val = 1) (e1 : (y 1).val = p.val) (e2 : (y 2).val = q.val) :
    slabs f g y = g (ix2 p q) := by
  unfold slabs
  rw [if_neg (by omega)]
  exact congrArg g (funext fun b => match b with | ⟨0, _⟩ => Fin.ext e1 | ⟨1, _⟩ => Fin.ext e2)

/-- Flattening the two slabs into one [2·a, n] array is the first array with the second joined below it: row r of the
    flattened array is row r of slab 0 for r < a and row r − a of slab 1 otherwise, in either reading. -/
theorem flatten_slabs {a2 : ℕ} (ha2 : a2 = a + a) (f g : (⟨2, ![a, n]⟩ : Shape).Idx → α)
    (hc : (⟨3, ![2, a, n]⟩ : Shape).ShapeCasts ⟨2, ![a2, n]⟩)
    (hj : Shape.Concatenates [⟨2, ![a, n]⟩, ⟨2, ![a, n]⟩] ⟨2, ![a2, n]⟩ 0) :
    shapeCast ⟨2, ![a2, n]⟩ (slabs f g) hc = concatenate ⟨2, ![a2, n]⟩ 0 [⟨⟨2, ![a, n]⟩, f⟩, ⟨⟨2, ![a, n]⟩, g⟩] hj := by
  subst ha2
  funext j
  obtain ⟨r, k, rfl⟩ : ∃ (r : Fin (a + a)) (k : Fin n), j = ix2 r k := ⟨j 0, j 1, eq_ix2 j⟩
  have off1 : ∀ (r' : Fin a) (b : Fin (⟨2, ![a, n]⟩ : Shape).rank),
      b.cast (rfl : (⟨2, ![a, n]⟩ : Shape).rank = (⟨2, ![a + a, n]⟩ : Shape).rank) ≠ 0 →
      ((ix2 r' k : (⟨2, ![a, n]⟩ : Shape).Idx) b).val = ((ix2 r k : (⟨2, ![a + a, n]⟩ : Shape).Idx) (b.cast rfl)).val := by
    intro r' b hb
    match b with
    | ⟨0, _⟩ => exact absurd rfl hb
    | ⟨1, _⟩ => rfl
  by_cases hr : r.val < a
  · have e1 : shapeCast ⟨2, ![a + a, n]⟩ (slabs f g) hc (ix2 r k) = slabs f g (ix3 (0 : Fin 2) (⟨r.val, hr⟩ : Fin a) k) :=
      shapeCast_apply (slabs f g) hc _ _ (by
        rw [Shape.rowMajor_val_three, Shape.rowMajor_val_two]
        show (0 * a + r.val) * n + k.val = r.val * n + k.val
        rw [Nat.zero_mul, Nat.zero_add])
    rw [e1, slabs_zero f g _ ⟨r.val, hr⟩ k rfl rfl rfl]
    exact (concatenate_apply_piece 0 [⟨⟨2, ![a, n]⟩, f⟩, ⟨⟨2, ![a, n]⟩, g⟩] hj (ix2 r k)
      0 (by show (0 : ℕ) < 2; omega) ⟨2, ![a, n]⟩ f rfl rfl 0 rfl (ix2 ⟨r.val, hr⟩ k) (off1 _)
      (by show 0 + r.val = r.val; omega)).symm
  · have hr' : r.val - a < a := by have := r.isLt; omega
    have e1 : shapeCast ⟨2, ![a + a, n]⟩ (slabs f g) hc (ix2 r k) = slabs f g (ix3 (1 : Fin 2) (⟨r.val - a, hr'⟩ : Fin a) k) :=
      shapeCast_apply (slabs f g) hc _ _ (by
        rw [Shape.rowMajor_val_three, Shape.rowMajor_val_two]
        show (1 * a + (r.val - a)) * n + k.val = r.val * n + k.val
        have : 1 * a + (r.val - a) = r.val := by omega
        rw [this])
    rw [e1, slabs_one f g _ ⟨r.val - a, hr'⟩ k rfl rfl rfl]
    exact (concatenate_apply_piece 0 [⟨⟨2, ![a, n]⟩, f⟩, ⟨⟨2, ![a, n]⟩, g⟩] hj (ix2 r k)
      1 (by show (1 : ℕ) < 2; omega) ⟨2, ![a, n]⟩ g rfl rfl (a + 0) rfl (ix2 ⟨r.val - a, hr'⟩ k) (off1 _)
      (by show a + 0 + (r.val - a) = r.val; omega)).symm

end Slabs

end Idealize.ShloMosaic.RowBlock

end
-- ==== Proof.ProjRegion.lean ====
/-
  The first region computes, for every object row x, the row x·W + b, ten blocks of 10000 rows at a time. A block of
  the result depends only on the same block of rows of the input: a row of a matrix product is the product of that
  row with the matrix, and the bias row is added to every row alike. So block t of the result is rows
  10000·t … 10000·t + 9999 of the whole array's x·W + b, the ten blocks tile the 100000 rows, and after the last grid
  point the output array is x·W + b of the whole array — whatever the arrays held when the region was entered.
-/
import proofs.«108912_j90022514524502_2_alg».proof.Proof.Gen.KernelIdeal.Frame
import proofs.«108912_j90022514524502_2_alg».proof.Proof.Spec
import proofs.«108912_j90022514524502_2_alg».proof.Proof.LibRowBlock
import Idealize.ShloMosaic.Lib.ValueIdx

noncomputable section

namespace Cert.KernelIdeal.ProjRegion

open Idealize.ShloMosaic Idealize.ShloMosaic.TcCoe Idealize.SL.Sem Cert.KernelIdeal Cert.KernelIdeal.Gen
open Idealize.ShloMosaic.ValueIdx Idealize.ShloMosaic.RowBlock

variable (V : (c : Dev nD) → (b : Ref sig .tc) → Buf (Elt Ideal) ((c : Thread nD τ).loc b))

/-- A block starts at offset zero inside its staging buffer. -/
theorem hz : (![0, 0] : Fin 2 → Nat) = fun _ => 0 := funext fun a => by fin_cases a <;> rfl

/-- The windows' block indices at grid point t: the row-blocked windows sit at block (t, 0), the weight matrix and the
    bias row at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are ten grid points. -/
theorem lt_N (t : Fin cfg0.N) : t.val < 10 := by have h : cfg0.N = 10 := N_0; have := t.isLt; omega

/-- Block t lies inside the 100000 rows. -/
theorem hrow (t : Fin cfg0.N) : t.val * 10000 + 10000 ≤ 100000 := by have := lt_N t; omega

/-- The block of object rows fetched at point t is rows 10000·t … of the array. -/
theorem rows_x (c : Dev nD) (t : Fin cfg0.N) :
    IsRows (B := 100000) (R := 10000) t.val (hrow t) (iblk0 V c 0 t) (V c main_arg1) := by
  intro p q
  obtain ⟨e0, e1, -⟩ := idx_facts t
  show V c main_arg1 (((cfg0.win 0).blk t).view.emb (ix2 p q)) = V c main_arg1 (ix2 (row t.val (hrow t) p) q)
  refine congrArg (V c main_arg1) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 128 + 1 * q.val = q.val; rw [e1]; omega

/-- The weight window's block is the whole weight matrix at every point. -/
theorem whole_w (c : Dev nD) (t : Fin cfg0.N) (k : Fin 128) (q : Fin 128) :
    iblk0 V c 1 t (ix2 k q) = V c main_v0 (ix2 k q) := by
  obtain ⟨-, -, e2, e3, -⟩ := idx_facts t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias window's block is the whole bias row at every point. -/
theorem whole_b (c : Dev nD) (t : Fin cfg0.N) : (iblk0 V c 2 t : S1x128.Idx → EReal) = V c main_v5 := by
  obtain ⟨-, -, -, -, e4, e5, -⟩ := idx_facts t
  funext j
  obtain ⟨u, q, rfl⟩ : ∃ (u : Fin 1) (q : Fin 128), j = ix2 u q := ⟨j 0, j 1, eq_ix2 j⟩
  show V c main_v5 (((cfg0.win 2).blk t).view.emb (ix2 u q)) = V c main_v5 (ix2 u q)
  refine congrArg (V c main_v5) (funext fun a => Fin.ext ?_)
  match a with
  | ⟨0, _⟩ => show win0_2.index t (0 : Fin 2) * 1 + 1 * u.val = u.val; rw [e4]; omega
  | ⟨1, _⟩ => show win0_2.index t (1 : Fin 2) * 128 + 1 * q.val = q.val; rw [e5]; omega

/-- The body on one block of rows: the rows' product with the weight matrix plus the bias row are the same rows of the
    whole array's product plus the bias row repeated. -/
theorem body_rows {t : ℕ} {h : t * 10000 + 10000 ≤ 100000}
    (x0 : Vec Ideal S10000x128 .f32) (x1 : Vec Ideal S128x128 .f32) (x2 : Vec Ideal S1x128 .f32)
    (X : Cert.Spec.Arr Cert.ReferenceIdeal.S100000x128) (W : Cert.Spec.Arr Cert.ReferenceIdeal.S128x128)
    (Brow : Cert.Spec.Arr Cert.ReferenceIdeal.S1x128)
    (hx : IsRows t h x0 X) (hw : ∀ (k : Fin 128) (q : Fin 128), x1 (ix2 k q) = W (ix2 k q)) (hbr : x2 = Brow) :
    IsRows t h (k0_pay1 x0 x1 x2) (Cert.Spec.projRows X W Brow) := by
  subst hbr
  unfold k0_pay1 Cert.Spec.projRows
  simp only [shapeCast_self]
  exact IsRows.truncf _ (IsRows.addf (IsRows.dot (IsRows.truncf _ hx) hw) (IsRows.rowBroadcast x2 _ _))

/-- What grid point t writes back is block t of the projection of the whole array. -/
theorem flushed_eq (c : Dev nD) (t : Fin cfg0.N) :
    (dat0 (F := Ideal) V c).flushed 3 t
      = ((cfg0.win 3).blk t).view.read (Elt Ideal) (Cert.Spec.projRows (V c main_arg1) (V c main_v0) (V c main_v5)) := by
  show (cfg0.win 3).cut (grid0.coords t) ((dat0 (F := Ideal) V c).after 3 t) = _
  rw [after0_3]
  unfold out0_3
  rw [View.canon_unit_zero hz]
  simp only [View.ld_unit_zero (S := S10000x128) hz, View.ld_unit_zero (S := S128x128) hz, View.ld_unit_zero (S := S1x128) hz]
  obtain ⟨-, -, -, -, -, -, e6, e7⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (iblk0 V c 2 t) (ix2 p q)
    = Cert.Spec.projRows (V c main_arg1) (V c main_v0) (V c main_v5) (((cfg0.win 3).blk t).view.emb (ix2 p q))
  refine (body_rows (t := t.val) (h := hrow t) (iblk0 V c 0 t) (iblk0 V c 1 t) (iblk0 V c 2 t)
    (V c main_arg1) (V c main_v0) (V c main_v5) (rows_x V c t) (whole_w V c t) (whole_b V c t) p q).trans ?_
  show Cert.Spec.projRows (V c main_arg1) (V c main_v0) (V c main_v5) (ix2 (row t.val (hrow t) p) q)
    = Cert.Spec.projRows (V c main_arg1) (V c main_v0) (V c main_v5) (((cfg0.win 3).blk t).view.emb (ix2 p q))
  refine congrArg _ (funext fun a => Fin.ext ?_)
  match a with
  | ⟨0, _⟩ => show t.val * 10000 + p.val = win0_3.index t (0 : Fin 2) * 10000 + 1 * p.val; rw [e6]; omega
  | ⟨1, _⟩ => show q.val = win0_3.index t (1 : Fin 2) * 128 + 1 * q.val; rw [e7]; omega

/-- An index of the output array lies in point t's block iff each coordinate lies in the block's range on its axis. -/
theorem mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v6).slice (win0_3.rect t)).set ↔ _
  rw [View.set_slice_whole, Rect.mem_set_unit]
  exact Iff.rfl

/-- The ten blocks of 10000 rows tile the 100000 rows: row r lies in block r / 10000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by omega⟩, flush0_3 _, ?_⟩
  rw [mem_blk]
  obtain ⟨-, -, -, -, -, -, e6, e7⟩ := idx_facts ⟨(i 0).val / 10000, by omega⟩
  intro a
  match a with
  | ⟨0, _⟩ =>
    show win0_3.index _ (0 : Fin 2) * 10000 ≤ (i 0).val ∧ (i 0).val < win0_3.index _ (0 : Fin 2) * 10000 + 10000
    rw [e6]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e7]; omega

/-- After all ten grid points the output array is the projection of the whole array of object rows. -/
theorem final0_3 (c : Dev nD) :
    (dat0 (F := Ideal) V c).arrAt 3 cfg0.N = Cert.Spec.projRows (V c main_arg1) (V c main_v0) (V c main_v5) :=
  (dat0 (F := Ideal) V c).arrAt_eq_of_cover 3 _ (fun t _ => flushed_eq V c t) cover

end Cert.KernelIdeal.ProjRegion

end
-- ==== Proof.LibSplitSum.lean ====
/-
  A finite sum over a + b, or a + b + c, consecutive positions is the sum of the sums over its consecutive stretches — in
  any additive commutative monoid, so also on the extended reals, where nothing is assumed finite. The dot-product form:
  a row made of three stretches, times a column, is the sum of the three stretches' dot products with the matching
  stretches of the column. This is the law that joins a product with a concatenated operand to the sum of products with
  the operand's pieces.
-/
import Mathlib.Algebra.BigOperators.Fin

namespace Cert.Lib.SplitSum

variable {M : Type} [AddCommMonoid M]

/-- Two stretches. -/
theorem sum_two (a b n : ℕ) (h : a + b = n) (f : Fin n → M) :
    ∑ k : Fin n, f k = (∑ k : Fin a, f ⟨k.val, by omega⟩) + ∑ k : Fin b, f ⟨a + k.val, by omega⟩ := by
  subst h
  rw [Fin.sum_univ_add]
  rfl

/-- Three stretches. -/
theorem sum_three (a b c n : ℕ) (h : a + b + c = n) (f : Fin n → M) :
    ∑ k : Fin n, f k
      = ((∑ k : Fin a, f ⟨k.val, by omega⟩) + ∑ k : Fin b, f ⟨a + k.val, by omega⟩)
        + ∑ k : Fin c, f ⟨a + b + k.val, by omega⟩ := by
  rw [sum_two (a + b) c n h f, sum_two a b (a + b) rfl (fun k => f ⟨k.val, by omega⟩)]

variable [Mul M]

/-- A row of two stretches times a column. -/
theorem dot_two (a b n : ℕ) (h : a + b = n) (x w : Fin n → M) (x₁ : Fin a → M) (x₂ : Fin b → M)
    (h₁ : ∀ k : Fin a, x ⟨k.val, by omega⟩ = x₁ k) (h₂ : ∀ k : Fin b, x ⟨a + k.val, by omega⟩ = x₂ k) :
    ∑ k : Fin n, x k * w k
      = (∑ k : Fin a, x₁ k * w ⟨k.val, by omega⟩) + ∑ k : Fin b, x₂ k * w ⟨a + k.val, by omega⟩ := by
  rw [sum_two a b n h]
  congr 1
  · exact Finset.sum_congr rfl fun k _ => by rw [h₁ k]
  · exact Finset.sum_congr rfl fun k _ => by rw [h₂ k]

/-- A row of three stretches times a column. -/
theorem dot_three (a b c n : ℕ) (h : a + b + c = n) (x w : Fin n → M) (x₁ : Fin a → M) (x₂ : Fin b → M) (x₃ : Fin c → M)
    (h₁ : ∀ k : Fin a, x ⟨k.val, by omega⟩ = x₁ k) (h₂ : ∀ k : Fin b, x ⟨a + k.val, by omega⟩ = x₂ k)
    (h₃ : ∀ k : Fin c, x ⟨a + b + k.val, by omega⟩ = x₃ k) :
    ∑ k : Fin n, x k * w k
      = ((∑ k : Fin a, x₁ k * w ⟨k.val, by omega⟩) + ∑ k : Fin b, x₂ k * w ⟨a + k.val, by omega⟩)
        + ∑ k : Fin c, x₃ k * w ⟨a + b + k.val, by omega⟩ := by
  rw [sum_three a b c n h]
  congr 1
  · congr 1
    · exact Finset.sum_congr rfl fun k _ => by rw [h₁ k]
    · exact Finset.sum_congr rfl fun k _ => by rw [h₂ k]
  · exact Finset.sum_congr rfl fun k _ => by rw [h₃ k]

end Cert.Lib.SplitSum
-- ==== Proof.LibRowMean.lean ====
/-
  Two further laws about rows t·R, …, t·R + R − 1 of a [B, n] array, on the extended reals with nothing assumed finite.
  The mean law: multiplying every row of the R rows by that row's reciprocal 1 / d(r), repeated across the columns, is
  dividing the whole array's rows by d(r), as long as no d(r) is zero — because off zero a quotient x / y is the product
  x · y⁻¹, so x · (1 / y) = x · (1 · y⁻¹) = x / y. The split product: the sum of two matrix products, of two arrays of rows
  with the upper and the lower stretch of a weight matrix's rows, is the one product of the two arrays joined along
  their columns with the whole weight matrix — a sum over K₁ + K₂ positions is the sum of the sums over its two
  stretches.
-/
import proofs.«108912_j90022514524502_2_alg».proof.Proof.LibRowBlock
import proofs.«108912_j90022514524502_2_alg».proof.Proof.LibSplitSum

noncomputable section

open scoped BigOperators

namespace Idealize.ShloMosaic.RowBlock

open Idealize.ShloMosaic Idealize.ShloMosaic.ValueIdx

variable {B R : ℕ} {t : ℕ} {h : t * R + R ≤ B}

/-- Off zero, multiplying by the reciprocal is dividing: x · (1 / y) = x / y for y ≠ 0, whatever x and y are otherwise
    (an infinite y has inverse 0 on either side). -/
theorem mul_div_one (x y : EReal) (hy : y ≠ 0) : x * Ideal.div 1 y = Ideal.div x y := by
  unfold Ideal.div
  rw [if_neg hy, if_neg hy, one_mul]

/-- A vector [B] made a column [B, 1] and repeated across n columns, read at an entry: row r holds d(r) everywhere. -/
theorem colOfVector_apply {n : ℕ} (d : (⟨1, ![B]⟩ : Shape).Idx → EReal)
    (hc : (⟨1, ![B]⟩ : Shape).BroadcastsInDim ⟨2, ![B, 1]⟩ ![0])
    (hB : (⟨2, ![B, 1]⟩ : Shape).BroadcastsInDim ⟨2, ![B, n]⟩ ![0, 1]) (r : Fin B) (q : Fin n) :
    broadcastInDim ⟨2, ![B, n]⟩ ![0, 1] hB (broadcastInDim ⟨2, ![B, 1]⟩ ![0] hc d) (ix2 r q) = d (ix1 r) := by
  have e2 : broadcastInDim ⟨2, ![B, n]⟩ ![0, 1] hB (broadcastInDim ⟨2, ![B, 1]⟩ ![0] hc d) (ix2 r q)
      = broadcastInDim ⟨2, ![B, 1]⟩ ![0] hc d (ix2 r (0 : Fin 1)) := by
    refine broadcastInDim_apply ![0, 1] hB _ (ix2 r q) (ix2 r (0 : Fin 1)) fun ax => ?_
    match ax with
    | ⟨0, _⟩ =>
      show r.val = if B = 1 then 0 else r.val
      split
      · have := r.isLt; omega
      · rfl
    | ⟨1, _⟩ => rfl
  have e3 : broadcastInDim ⟨2, ![B, 1]⟩ ![0] hc d (ix2 r (0 : Fin 1)) = d (ix1 r) := by
    refine broadcastInDim_apply ![0] hc d (ix2 r (0 : Fin 1)) (ix1 r) fun ax => ?_
    match ax with
    | ⟨0, _⟩ =>
      show r.val = if B = 1 then 0 else r.val
      split
      · have := r.isLt; omega
      · rfl
  rw [e2, e3]

/-- The mean law. The R rows of s, each multiplied by its own reciprocal 1 / d(r) held in a column [R, 1] and repeated
    across the columns (the vector unit's way), are the R rows of s divided by d made a column and repeated across the
    columns (the host's way), provided no d(r) is zero. Nothing is assumed finite. -/
theorem IsRows.mean {n : ℕ} {φ φ' : FTy} {s' : FVec Ideal ⟨2, ![R, n]⟩ φ'} {s : FVec Ideal ⟨2, ![B, n]⟩ φ}
    {y' : FVec Ideal ⟨2, ![R, 1]⟩ φ'} {d : FVec Ideal ⟨1, ![B]⟩ φ}
    (hs : IsRows t h s' s)
    (hy : ∀ p : Fin R, y' (ix2 p (0 : Fin 1)) = Ideal.div 1 (d (ix1 (row t h p))))
    (hne : ∀ r : Fin B, d (ix1 r) ≠ 0)
    (hR : (⟨2, ![R, 1]⟩ : Shape).Broadcasts ⟨2, ![R, n]⟩)
    (hc : (⟨1, ![B]⟩ : Shape).BroadcastsInDim ⟨2, ![B, 1]⟩ ![0])
    (hB : (⟨2, ![B, 1]⟩ : Shape).BroadcastsInDim ⟨2, ![B, n]⟩ ![0, 1]) :
    IsRows t h (Idealize.ShloMosaic.mulf s' (broadcastTo ⟨2, ![R, n]⟩ y' hR))
      (Host.divf s
        (broadcastInDim ⟨2, ![B, n]⟩ ![0, 1] hB (broadcastInDim ⟨2, ![B, 1]⟩ ![0] hc d))) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  show s' (ix2 p q) * broadcastTo ⟨2, ![R, n]⟩ y' hR (ix2 p q)
    = Ideal.div (s (ix2 (row t h p) q))
        (broadcastInDim ⟨2, ![B, n]⟩ ![0, 1] hB (broadcastInDim ⟨2, ![B, 1]⟩ ![0] hc d) (ix2 (row t h p) q))
  rw [e1, colOfVector_apply d hc hB (row t h p) q, hy p, hs p q]
  exact mul_div_one _ _ (hne (row t h p))

/-- The split product. The sum of the matrix unit's products of two arrays of R rows with the upper K₁ rows and the
    lower K₂ rows of a weight matrix (each into a zero accumulator) is the R rows of the host's one product of the two
    whole arrays joined along their columns with the whole weight matrix: entry (p, q) of either is the sum over the
    K₁ + K₂ positions of the joined row times the column, cut into its two stretches. -/
theorem IsRows.splitDot {K₁ K₂ K N : ℕ} {φ₁ φ₂ φ₁' φ₂' : FTy}
    {x₁' : FVec Ideal ⟨2, ![R, K₁]⟩ φ₁'} {x₁ : FVec Ideal ⟨2, ![B, K₁]⟩ φ₁}
    {x₂' : FVec Ideal ⟨2, ![R, K₂]⟩ φ₁'} {x₂ : FVec Ideal ⟨2, ![B, K₂]⟩ φ₁}
    {w₁' : FVec Ideal ⟨2, ![K₁, N]⟩ φ₂'} {w₂' : FVec Ideal ⟨2, ![K₂, N]⟩ φ₂'} {w : FVec Ideal ⟨2, ![K, N]⟩ φ₂}
    (h₁ : IsRows t h x₁' x₁) (h₂ : IsRows t h x₂' x₂) (hK : K₁ + K₂ = K)
    (hw₁ : ∀ (k : Fin K₁) (q : Fin N), w₁' (ix2 k q) = w (ix2 (⟨k.val, by omega⟩ : Fin K) q))
    (hw₂ : ∀ (k : Fin K₂) (q : Fin N), w₂' (ix2 k q) = w (ix2 (⟨K₁ + k.val, by omega⟩ : Fin K) q))
    (hj : Shape.Concatenates [⟨2, ![B, K₁]⟩, ⟨2, ![B, K₂]⟩] ⟨2, ![B, K]⟩ 1) :
    IsRows t h
      (Idealize.ShloMosaic.addf (matmul (DotDims.plain R K₁ N) none x₁' w₁' (constant ⟨2, ![R, N]⟩ .f32 0x00000000#32))
        (matmul (DotDims.plain R K₂ N) none x₂' w₂' (constant ⟨2, ![R, N]⟩ .f32 0x00000000#32)))
      (Host.dotGeneral (DotDims.plain B K N) none
        (concatenate ⟨2, ![B, K]⟩ 1 [⟨⟨2, ![B, K₁]⟩, x₁⟩, ⟨⟨2, ![B, K₂]⟩, x₂⟩] hj : FVec Ideal ⟨2, ![B, K]⟩ φ₁) w) := by
  intro p q
  show matmul (DotDims.plain R K₁ N) none x₁' w₁' (constant ⟨2, ![R, N]⟩ .f32 0x00000000#32) (ix2 p q)
      + matmul (DotDims.plain R K₂ N) none x₂' w₂' (constant ⟨2, ![R, N]⟩ .f32 0x00000000#32) (ix2 p q) = _
  rw [PlainProduct.matmul_zero_at R K₁ N x₁' w₁' p q, PlainProduct.matmul_zero_at R K₂ N x₂' w₂' p q,
    PlainProduct.dotGeneral_at B K N _ w (row t h p) q]
  rw [Cert.Lib.SplitSum.dot_two K₁ K₂ K hK
    (fun k => concatenate ⟨2, ![B, K]⟩ 1 [⟨⟨2, ![B, K₁]⟩, x₁⟩, ⟨⟨2, ![B, K₂]⟩, x₂⟩] hj (ix2 (row t h p) k))
    (fun k => w (ix2 k q)) (fun k => x₁ (ix2 (row t h p) k)) (fun k => x₂ (ix2 (row t h p) k))
    (fun k => joined2_first x₁ x₂ hj (row t h p) ⟨k.val, by have := k.isLt; omega⟩ k rfl)
    (fun k => joined2_second x₁ x₂ hj (row t h p) ⟨K₁ + k.val, by have := k.isLt; omega⟩ k rfl)]
  refine congrArg₂ (· + ·) ?_ ?_
  · exact Finset.sum_congr rfl fun k _ => congrArg₂ (· * ·) (h₁ p k) (hw₁ k q)
  · exact Finset.sum_congr rfl fun k _ => congrArg₂ (· * ·) (h₂ p k) (hw₂ k q)

end Idealize.ShloMosaic.RowBlock

end
-- ==== Proof.MlpRegion.lean ====
/-
  The perceptron region: 50 grid points, each working on 4000 event rows. After all points, each of the region's two
  output arrays holds the whole-array perceptron of the region's entry arrays — with c = s / d (every row of the summed
  messages divided by its count), relu([evt, c]·w1t + b1)·w2t + b2 — where the kernel multiplies by the stored
  reciprocals 1 / d and splits the first product into the products with the upper and the lower half of w1t.
-/
import proofs.«108912_j90022514524502_2_alg».proof.Proof.Gen.KernelIdeal.Frame
import proofs.«108912_j90022514524502_2_alg».proof.Proof.Spec
import proofs.«108912_j90022514524502_2_alg».proof.Proof.LibRowMean
import Idealize.ShloMosaic.Lib.ValueIdx

noncomputable section

namespace Cert.KernelIdeal.MlpRegion

open Idealize.ShloMosaic Idealize.ShloMosaic.TcCoe Idealize.SL.Sem Cert.KernelIdeal Cert.KernelIdeal.Gen
open Idealize.ShloMosaic.ValueIdx Idealize.ShloMosaic.RowBlock

variable (V : (c : Dev nD) → (b : Ref sig .tc) → Buf (Elt Ideal) ((c : Thread nD τ).loc b))

/-! ## The body on 4000 rows -/

/-- The kernel body's value on rows t·4000 … t·4000 + 3999 is those rows of the whole-array perceptron. -/
theorem body_rows (t : ℕ) (h : t * 4000 + 4000 ≤ 200000)
    (x0 : Vec Ideal S4000x128 .f32) (x2 : Vec Ideal S4000x1 .f32) (x6 : Vec Ideal S4000x128 .f32)
    (x9 x12 : Vec Ideal S128x128 .f32) (x18 : Vec Ideal S1x128 .f32) (x25 : Vec Ideal S128x128 .f32)
    (x29 : Vec Ideal S1x128 .f32)
    (evt s : Cert.Spec.Arr Cert.ReferenceIdeal.S200000x128) (d : Cert.Spec.Arr Cert.ReferenceIdeal.S200000)
    (w1t : Cert.Spec.Arr Cert.ReferenceIdeal.S256x128) (w2t : Cert.Spec.Arr Cert.ReferenceIdeal.S128x128)
    (hs : IsRows (B := 200000) (R := 4000) t h x0 s)
    (hy : ∀ p : Fin 4000, x2 (ix2 p (0 : Fin 1)) = Ideal.div 1 (d (ix1 (row t h p))))
    (hne : ∀ r : Fin 200000, d (ix1 r) ≠ 0)
    (hevt : IsRows (B := 200000) (R := 4000) t h x6 evt)
    (hw1e : ∀ (k : Fin 128) (q : Fin 128), x9 (ix2 k q) = w1t (ix2 (⟨k.val, by omega⟩ : Fin 256) q))
    (hw1c : ∀ (k : Fin 128) (q : Fin 128), x12 (ix2 k q) = w1t (ix2 (⟨128 + k.val, by omega⟩ : Fin 256) q))
    (hw2 : ∀ (k : Fin 128) (q : Fin 128), x25 (ix2 k q) = w2t (ix2 k q)) :
    IsRows (B := 200000) (R := 4000) t h (k1_pay1 x0 x2 x6 x9 x12 x18 x25 x29)
      (Cert.Spec.mlpRows evt s d w1t x18 w2t x29) := by
  unfold k1_pay1 Cert.Spec.mlpRows
  simp only [shapeCast_self]
  exact IsRows.addf
    (IsRows.dot
      (IsRows.truncf _
        (IsRows.maximumf
          (IsRows.addf
            (IsRows.splitDot (K₁ := 128) (K₂ := 128) (K := 256) (N := 128)
              (IsRows.truncf _ hevt)
              (IsRows.truncf _ (IsRows.mean hs hy hne _ _ _))
              rfl (fun k q => hw1e k q) (fun k q => hw1c k q) _)
            (IsRows.rowBroadcast x18 _ _))
          (IsRows.const _ _)))
      (fun k q => hw2 k q))
    (IsRows.rowBroadcast x29 _ _)

/-- The truncated copy of the body's value is the same rows: on the extended reals a change of format is the identity. -/
theorem body_rows_trunc (t : ℕ) (h : t * 4000 + 4000 ≤ 200000)
    (x0 : Vec Ideal S4000x128 .f32) (x2 : Vec Ideal S4000x1 .f32) (x6 : Vec Ideal S4000x128 .f32)
    (x9 x12 : Vec Ideal S128x128 .f32) (x18 : Vec Ideal S1x128 .f32) (x25 : Vec Ideal S128x128 .f32)
    (x29 : Vec Ideal S1x128 .f32)
    (evt s : Cert.Spec.Arr Cert.ReferenceIdeal.S200000x128) (d : Cert.Spec.Arr Cert.ReferenceIdeal.S200000)
    (w1t : Cert.Spec.Arr Cert.ReferenceIdeal.S256x128) (w2t : Cert.Spec.Arr Cert.ReferenceIdeal.S128x128)
    (hs : IsRows (B := 200000) (R := 4000) t h x0 s)
    (hy : ∀ p : Fin 4000, x2 (ix2 p (0 : Fin 1)) = Ideal.div 1 (d (ix1 (row t h p))))
    (hne : ∀ r : Fin 200000, d (ix1 r) ≠ 0)
    (hevt : IsRows (B := 200000) (R := 4000) t h x6 evt)
    (hw1e : ∀ (k : Fin 128) (q : Fin 128), x9 (ix2 k q) = w1t (ix2 (⟨k.val, by omega⟩ : Fin 256) q))
    (hw1c : ∀ (k : Fin 128) (q : Fin 128), x12 (ix2 k q) = w1t (ix2 (⟨128 + k.val, by omega⟩ : Fin 256) q))
    (hw2 : ∀ (k : Fin 128) (q : Fin 128), x25 (ix2 k q) = w2t (ix2 k q)) :
    IsRows (B := 200000) (R := 4000) t h (k1_pay2 x0 x2 x6 x9 x12 x18 x25 x29)
      (Cert.Spec.mlpRows evt s d w1t x18 w2t x29) := by
  unfold k1_pay2
  exact IsRows.truncf _ (body_rows t h x0 x2 x6 x9 x12 x18 x25 x29 evt s d w1t w2t hs hy hne hevt hw1e hw1c hw2)

/-! ## The windows' blocks at a grid point -/

/-- A block starts at offset zero inside its staging buffer. -/
theorem hz : (![0, 0] : Fin 2 → Nat) = fun _ => 0 := funext fun a => by fin_cases a <;> rfl

/-- The windows' block indices at grid point t: the windows over event rows (the events, the summed messages, the
    reciprocal column and the two outputs) sit at block (t, 0), the weight matrices and bias rows at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- There are fifty grid points. -/
theorem lt_N (t : Fin cfg1.N) : t.val < 50 := by have h : cfg1.N = 50 := N_1; have := t.isLt; omega

/-- Block t lies inside the 200000 rows. -/
theorem hrow (t : Fin cfg1.N) : t.val * 4000 + 4000 ≤ 200000 := by have := lt_N t; omega

/-- The block of event rows fetched at point t is rows 4000·t … of the array. -/
theorem rows_evt (c : Dev nD) (t : Fin cfg1.N) :
    IsRows (B := 200000) (R := 4000) t.val (hrow t) (iblk1 V c 0 t) (V c main_arg0) := by
  intro p q
  obtain ⟨e0, e1, -⟩ := idx_facts t
  show V c main_arg0 (((cfg1.win 0).blk t).view.emb (ix2 p q)) = V c main_arg0 (ix2 (row t.val (hrow t) p) q)
  refine congrArg (V c main_arg0) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * q.val = q.val; rw [e1]; omega

/-- The block of summed messages fetched at point t is rows 4000·t … of the array. -/
theorem rows_sum (c : Dev nD) (t : Fin cfg1.N) :
    IsRows (B := 200000) (R := 4000) t.val (hrow t) (iblk1 V c 1 t) (V c main_v17) := by
  intro p q
  obtain ⟨-, -, e0, e1, -⟩ := idx_facts t
  show V c main_v17 (((cfg1.win 1).blk t).view.emb (ix2 p q)) = V c main_v17 (ix2 (row t.val (hrow t) p) q)
  refine congrArg (V c main_v17) (funext fun a => Fin.ext ?_)
  match a with
  | ⟨0, _⟩ => show win1_1.index t (0 : Fin 2) * 4000 + 1 * p.val = t.val * 4000 + p.val; rw [e0]; omega
  | ⟨1, _⟩ => show win1_1.index t (1 : Fin 2) * 128 + 1 * q.val = q.val; rw [e1]; omega

/-- The block of the reciprocal column fetched at point t is entries 4000·t … of the column. -/
theorem rows_recip (c : Dev nD) (t : Fin cfg1.N) (p : Fin 4000) :
    iblk1 V c 2 t (ix2 p (0 : Fin 1)) = V c main_v26 (ix2 (row t.val (hrow t) p) (0 : Fin 1)) := by
  obtain ⟨-, -, -, -, e0, e1, -⟩ := idx_facts t
  show V c main_v26 (((cfg1.win 2).blk t).view.emb (ix2 p (0 : Fin 1))) = V c main_v26 (ix2 (row t.val (hrow t) p) (0 : Fin 1))
  refine congrArg (V c main_v26) (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 1 + 1 * 0 = 0; rw [e1]

/-- The window over the upper half of the first weight matrix holds that whole half at every point. -/
theorem whole_w1e (c : Dev nD) (t : Fin cfg1.N) (k : Fin 128) (q : Fin 128) :
    iblk1 V c 3 t (ix2 k q) = V c main_v27 (ix2 k q) := by
  obtain ⟨-, -, -, -, -, -, e0, e1, -⟩ := idx_facts t
  show V c main_v27 (((cfg1.win 3).blk t).view.emb (ix2 k q)) = V c main_v27 (ix2 k q)
  refine congrArg (V c main_v27) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The window over the lower half of the first weight matrix holds that whole half at every point. -/
theorem whole_w1c (c : Dev nD) (t : Fin cfg1.N) (k : Fin 128) (q : Fin 128) :
    iblk1 V c 4 t (ix2 k q) = V c main_v28 (ix2 k q) := by
  obtain ⟨-, -, -, -, -, -, -, -, e0, e1, -⟩ := idx_facts t
  show V c main_v28 (((cfg1.win 4).blk t).view.emb (ix2 k q)) = V c main_v28 (ix2 k q)
  refine congrArg (V c main_v28) (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The first bias window's block is the whole bias row at every point. -/
theorem whole_b1 (c : Dev nD) (t : Fin cfg1.N) : (iblk1 V c 5 t : S1x128.Idx → EReal) = V c main_v29 := by
  obtain ⟨-, -, -, -, -, -, -, -, -, -, e0, e1, -⟩ := idx_facts t
  funext j
  obtain ⟨u, q, rfl⟩ : ∃ (u : Fin 1) (q : Fin 128), j = ix2 u q := ⟨j 0, j 1, eq_ix2 j⟩
  show V c main_v29 (((cfg1.win 5).blk t).view.emb (ix2 u q)) = V c main_v29 (ix2 u q)
  refine congrArg (V c main_v29) (funext fun a => Fin.ext ?_)
  match a with
  | ⟨0, _⟩ => show win1_5.index t (0 : Fin 2) * 1 + 1 * u.val = u.val; rw [e0]; omega
  | ⟨1, _⟩ => show win1_5.index t (1 : Fin 2) * 128 + 1 * q.val = q.val; rw [e1]; omega

/-- The second weight window's block is the whole second weight matrix at every point. -/
theorem whole_w2 (c : Dev nD) (t : Fin cfg1.N) (k : Fin 128) (q : Fin 128) :
    iblk1 V c 6 t (ix2 k q) = V c main_v2 (ix2 k q) := by
  obtain ⟨-, -, -, -, -, -, -, -, -, -, -, -, e0, e1, -⟩ := idx_facts t
  show V c main_v2 (((cfg1.win 6).blk t).view.emb (ix2 k q)) = V c main_v2 (ix2 k q)
  refine congrArg (V c main_v2) (funext fun a => Fin.ext ?_)
  match a with
  | ⟨0, _⟩ => show win1_6.index t (0 : Fin 2) * 128 + 1 * k.val = k.val; rw [e0]; omega
  | ⟨1, _⟩ => show win1_6.index t (1 : Fin 2) * 128 + 1 * q.val = q.val; rw [e1]; omega

/-- The second bias window's block is the whole bias row at every point. -/
theorem whole_b2 (c : Dev nD) (t : Fin cfg1.N) : (iblk1 V c 7 t : S1x128.Idx → EReal) = V c main_v30 := by
  obtain ⟨-, -, -, -, -, -, -, -, -, -, -, -, -, -, e0, e1, -⟩ := idx_facts t
  funext j
  obtain ⟨u, q, rfl⟩ : ∃ (u : Fin 1) (q : Fin 128), j = ix2 u q := ⟨j 0, j 1, eq_ix2 j⟩
  show V c main_v30 (((cfg1.win 7).blk t).view.emb (ix2 u q)) = V c main_v30 (ix2 u q)
  refine congrArg (V c main_v30) (funext fun a => Fin.ext ?_)
  match a with
  | ⟨0, _⟩ => show win1_7.index t (0 : Fin 2) * 1 + 1 * u.val = u.val; rw [e0]; omega
  | ⟨1, _⟩ => show win1_7.index t (1 : Fin 2) * 128 + 1 * q.val = q.val; rw [e1]; omega

/-! ## What a grid point writes back -/

/-- What grid point t writes back to the first output is block t of the perceptron of the whole arrays. -/
theorem flushed8_eq (c : Dev nD) (d : Cert.Spec.Arr Cert.ReferenceIdeal.S200000)
    (hd : ∀ r : Fin 200000, V c main_v26 (ValueIdx.ix2 r (0 : Fin 1)) = Ideal.div 1 (d (ValueIdx.ix1 r)))
    (hne : ∀ r : Fin 200000, d (ValueIdx.ix1 r) ≠ 0)
    (w1t : Cert.Spec.Arr Cert.ReferenceIdeal.S256x128)
    (hw1e : ∀ (k : Fin 128) (q : Fin 128), V c main_v27 (ValueIdx.ix2 k q) = w1t (ValueIdx.ix2 (⟨k.val, by omega⟩ : Fin 256) q))
    (hw1c : ∀ (k : Fin 128) (q : Fin 128), V c main_v28 (ValueIdx.ix2 k q) = w1t (ValueIdx.ix2 (⟨128 + k.val, by omega⟩ : Fin 256) q)) (t : Fin cfg1.N) :
    (dat1 (F := Ideal) V c).flushed 8 t
      = ((cfg1.win 8).blk t).view.read (Elt Ideal) (Cert.Spec.mlpRows (V c main_arg0) (V c main_v17) d w1t (V c main_v29) (V c main_v2) (V c main_v30)) := by
  show (cfg1.win 8).cut (grid1.coords t) ((dat1 (F := Ideal) V c).after 8 t) = _
  rw [after1_8]
  unfold out1_8
  rw [View.canon_unit_zero hz]
  simp only [View.ld_unit_zero (S := S4000x128) hz, View.ld_unit_zero (S := S4000x1) hz, View.ld_unit_zero (S := S128x128) hz,
    View.ld_unit_zero (S := S1x128) hz]
  obtain ⟨-, -, -, -, -, -, -, -, -, -, -, -, -, -, -, -, e0, e1, -⟩ := idx_facts t
  funext j
  obtain ⟨p, q, rfl⟩ : ∃ (p : Fin 4000) (q : Fin 128), j = ix2 p q := ⟨j 0, j 1, eq_ix2 j⟩
  show k1_pay1 (iblk1 V c 1 t) (iblk1 V c 2 t) (iblk1 V c 0 t) (iblk1 V c 3 t) (iblk1 V c 4 t) (iblk1 V c 5 t) (iblk1 V c 6 t)
      (iblk1 V c 7 t) (ix2 p q)
    = Cert.Spec.mlpRows (V c main_arg0) (V c main_v17) d w1t (V c main_v29) (V c main_v2) (V c main_v30) (((cfg1.win 8).blk t).view.emb (ix2 p q))
  have hb := body_rows t.val (hrow t) (iblk1 V c 1 t) (iblk1 V c 2 t) (iblk1 V c 0 t) (iblk1 V c 3 t) (iblk1 V c 4 t)
      (iblk1 V c 5 t) (iblk1 V c 6 t) (iblk1 V c 7 t) (V c main_arg0) (V c main_v17) d w1t (V c main_v2)
      (rows_sum V c t) (fun p => (rows_recip V c t p).trans (hd _)) hne (rows_evt V c t)
      (fun k q => (whole_w1e V c t k q).trans (hw1e k q)) (fun k q => (whole_w1c V c t k q).trans (hw1c k q))
      (whole_w2 V c t) p q
  have e : Cert.Spec.mlpRows (V c main_arg0) (V c main_v17) d w1t (iblk1 V c 5 t) (V c main_v2) (iblk1 V c 7 t)
      = Cert.Spec.mlpRows (V c main_arg0) (V c main_v17) d w1t (V c main_v29) (V c main_v2) (V c main_v30) := by
    rw [whole_b1 V c t, whole_b2 V c t]
  refine (hb.trans (congrFun e _)).trans ?_
  show Cert.Spec.mlpRows (V c main_arg0) (V c main_v17) d w1t (V c main_v29) (V c main_v2) (V c main_v30) (ix2 (row t.val (hrow t) p) q)
    = Cert.Spec.mlpRows (V c main_arg0) (V c main_v17) d w1t (V c main_v29) (V c main_v2) (V c main_v30) (((cfg1.win 8).blk t).view.emb (ix2 p q))
  refine congrArg _ (funext fun a => Fin.ext ?_)
  match a with
  | ⟨0, _⟩ => show t.val * 4000 + p.val = win1_8.index t (0 : Fin 2) * 4000 + 1 * p.val; rw [e0]; omega
  | ⟨1, _⟩ => show q.val = win1_8.index t (1 : Fin 2) * 128 + 1 * q.val; rw [e1]; omega

/-- What grid point t writes back to the second output is block t of the perceptron of the whole arrays. -/
theorem flushed9_eq (c : Dev nD) (d : Cert.Spec.Arr Cert.ReferenceIdeal.S200000)
    (hd : ∀ r : Fin 200000, V c main_v26 (ValueIdx.ix2 r (0 : Fin 1)) = Ideal.div 1 (d (ValueIdx.ix1 r)))
    (hne : ∀ r : Fin 200000, d (ValueIdx.ix1 r) ≠ 0)
    (w1t : Cert.Spec.Arr Cert.ReferenceIdeal.S256x128)
    (hw1e : ∀ (k : Fin 128) (q : Fin 128), V c main_v27 (ValueIdx.ix2 k q) = w1t (ValueIdx.ix2 (⟨k.val, by omega⟩ : Fin 256) q))
    (hw1c : ∀ (k : Fin 128) (q : Fin 128), V c main_v28 (ValueIdx.ix2 k q) = w1t (ValueIdx.ix2 (⟨128 + k.val, by omega⟩ : Fin 256) q)) (t : Fin cfg1.N) :
    (dat1 (F := Ideal) V c).flushed 9 t
      = ((cfg1.win 9).blk t).view.read (Elt Ideal) (Cert.Spec.mlpRows (V c main_arg0) (V c main_v17) d w1t (V c main_v29) (V c main_v2) (V c main_v30)) := by
  show (cfg1.win 9).cut (grid1.coords t) ((dat1 (F := Ideal) V c).after 9 t) = _
  rw [after1_9]
  unfold out1_9
  rw [View.canon_unit_zero hz]
  simp only [View.ld_unit_zero (S := S4000x128) hz, View.ld_unit_zero (S := S4000x1) hz, View.ld_unit_zero (S := S128x128) hz,
    View.ld_unit_zero (S := S1x128) hz]
  obtain ⟨-, -, -, -, -, -, -, -, -, -, -, -, -, -, -, -, -, -, e0, e1⟩ := idx_facts t
  funext j
  obtain ⟨p, q, rfl⟩ : ∃ (p : Fin 4000) (q : Fin 128), j = ix2 p q := ⟨j 0, j 1, eq_ix2 j⟩
  show k1_pay2 (iblk1 V c 1 t) (iblk1 V c 2 t) (iblk1 V c 0 t) (iblk1 V c 3 t) (iblk1 V c 4 t) (iblk1 V c 5 t) (iblk1 V c 6 t)
      (iblk1 V c 7 t) (ix2 p q)
    = Cert.Spec.mlpRows (V c main_arg0) (V c main_v17) d w1t (V c main_v29) (V c main_v2) (V c main_v30) (((cfg1.win 9).blk t).view.emb (ix2 p q))
  have hb := body_rows_trunc t.val (hrow t) (iblk1 V c 1 t) (iblk1 V c 2 t) (iblk1 V c 0 t) (iblk1 V c 3 t) (iblk1 V c 4 t)
      (iblk1 V c 5 t) (iblk1 V c 6 t) (iblk1 V c 7 t) (V c main_arg0) (V c main_v17) d w1t (V c main_v2)
      (rows_sum V c t) (fun p => (rows_recip V c t p).trans (hd _)) hne (rows_evt V c t)
      (fun k q => (whole_w1e V c t k q).trans (hw1e k q)) (fun k q => (whole_w1c V c t k q).trans (hw1c k q))
      (whole_w2 V c t) p q
  have e : Cert.Spec.mlpRows (V c main_arg0) (V c main_v17) d w1t (iblk1 V c 5 t) (V c main_v2) (iblk1 V c 7 t)
      = Cert.Spec.mlpRows (V c main_arg0) (V c main_v17) d w1t (V c main_v29) (V c main_v2) (V c main_v30) := by
    rw [whole_b1 V c t, whole_b2 V c t]
  refine (hb.trans (congrFun e _)).trans ?_
  show Cert.Spec.mlpRows (V c main_arg0) (V c main_v17) d w1t (V c main_v29) (V c main_v2) (V c main_v30) (ix2 (row t.val (hrow t) p) q)
    = Cert.Spec.mlpRows (V c main_arg0) (V c main_v17) d w1t (V c main_v29) (V c main_v2) (V c main_v30) (((cfg1.win 9).blk t).view.emb (ix2 p q))
  refine congrArg _ (funext fun a => Fin.ext ?_)
  match a with
  | ⟨0, _⟩ => show t.val * 4000 + p.val = win1_9.index t (0 : Fin 2) * 4000 + 1 * p.val; rw [e0]; omega
  | ⟨1, _⟩ => show q.val = win1_9.index t (1 : Fin 2) * 128 + 1 * q.val; rw [e1]; omega

/-! ## The blocks tile the output arrays -/

/-- An index of the first output array lies in point t's block iff each coordinate lies in the block's range on its axis. -/
theorem mem_blk8 (t : Fin cfg1.N) (i : S200000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v31_0).slice (win1_8.rect t)).set ↔ _
  rw [View.set_slice_whole, Rect.mem_set_unit]
  exact Iff.rfl

/-- The fifty blocks of 4000 rows tile the 200000 rows of the first output: row r lies in block r / 4000. -/
theorem cover8 (i : S200000x128.Idx) :
    ∃ t : Fin cfg1.N, (cfg1.win 8).flush t = true ∧ i ∈ ((cfg1.win 8).blk t).view.set := by
  have hi0 : (i 0).val < 200000 := (i 0).isLt
  have hi1 : (i 1).val < 128 := (i 1).isLt
  have hN : cfg1.N = 50 := N_1
  refine ⟨⟨(i 0).val / 4000, by omega⟩, flush1_8 _, ?_⟩
  rw [mem_blk8]
  obtain ⟨-, -, -, -, -, -, -, -, -, -, -, -, -, -, -, -, e0, e1, -⟩ := idx_facts ⟨(i 0).val / 4000, by omega⟩
  intro a
  match a with
  | ⟨0, _⟩ =>
    show win1_8.index _ (0 : Fin 2) * 4000 ≤ (i 0).val ∧ (i 0).val < win1_8.index _ (0 : Fin 2) * 4000 + 4000
    rw [e0]; show (i 0).val / 4000 * 4000 ≤ (i 0).val ∧ (i 0).val < (i 0).val / 4000 * 4000 + 4000; omega
  | ⟨1, _⟩ =>
    show win1_8.index _ (1 : Fin 2) * 128 ≤ (i 1).val ∧ (i 1).val < win1_8.index _ (1 : Fin 2) * 128 + 128
    rw [e1]; omega

/-- An index of the second output array lies in point t's block iff each coordinate lies in the block's range on its axis. -/
theorem mem_blk9 (t : Fin cfg1.N) (i : S200000x128.Idx) :
    i ∈ ((cfg1.win 9).blk t).view.set ↔ ∀ a : Fin 2, win1_9.index t a * S4000x128.size a ≤ (i a).val ∧ (i a).val < win1_9.index t a * S4000x128.size a + S4000x128.size a := by
  show i ∈ ((View.whole main_v31_1).slice (win1_9.rect t)).set ↔ _
  rw [View.set_slice_whole, Rect.mem_set_unit]
  exact Iff.rfl

/-- The fifty blocks of 4000 rows tile the 200000 rows of the second output: row r lies in block r / 4000. -/
theorem cover9 (i : S200000x128.Idx) :
    ∃ t : Fin cfg1.N, (cfg1.win 9).flush t = true ∧ i ∈ ((cfg1.win 9).blk t).view.set := by
  have hi0 : (i 0).val < 200000 := (i 0).isLt
  have hi1 : (i 1).val < 128 := (i 1).isLt
  have hN : cfg1.N = 50 := N_1
  refine ⟨⟨(i 0).val / 4000, by omega⟩, flush1_9 _, ?_⟩
  rw [mem_blk9]
  obtain ⟨-, -, -, -, -, -, -, -, -, -, -, -, -, -, -, -, -, -, e0, e1⟩ := idx_facts ⟨(i 0).val / 4000, by omega⟩
  intro a
  match a with
  | ⟨0, _⟩ =>
    show win1_9.index _ (0 : Fin 2) * 4000 ≤ (i 0).val ∧ (i 0).val < win1_9.index _ (0 : Fin 2) * 4000 + 4000
    rw [e0]; show (i 0).val / 4000 * 4000 ≤ (i 0).val ∧ (i 0).val < (i 0).val / 4000 * 4000 + 4000; omega
  | ⟨1, _⟩ =>
    show win1_9.index _ (1 : Fin 2) * 128 ≤ (i 1).val ∧ (i 1).val < win1_9.index _ (1 : Fin 2) * 128 + 128
    rw [e1]; omega

/-! ## The output arrays after all grid points -/

/-- After all fifty grid points the first output array is the perceptron of the whole arrays. -/
theorem final1_8 (c : Dev nD) (d : Cert.Spec.Arr Cert.ReferenceIdeal.S200000)
    (hd : ∀ r : Fin 200000, V c main_v26 (ValueIdx.ix2 r (0 : Fin 1)) = Ideal.div 1 (d (ValueIdx.ix1 r)))
    (hne : ∀ r : Fin 200000, d (ValueIdx.ix1 r) ≠ 0)
    (w1t : Cert.Spec.Arr Cert.ReferenceIdeal.S256x128)
    (hw1e : ∀ (k : Fin 128) (q : Fin 128), V c main_v27 (ValueIdx.ix2 k q) = w1t (ValueIdx.ix2 (⟨k.val, by omega⟩ : Fin 256) q))
    (hw1c : ∀ (k : Fin 128) (q : Fin 128), V c main_v28 (ValueIdx.ix2 k q) = w1t (ValueIdx.ix2 (⟨128 + k.val, by omega⟩ : Fin 256) q)) :
    (dat1 (F := Ideal) V c).arrAt 8 cfg1.N
      = Cert.Spec.mlpRows (V c main_arg0) (V c main_v17) d w1t (V c main_v29) (V c main_v2) (V c main_v30) :=
  (dat1 (F := Ideal) V c).arrAt_eq_of_cover 8 _ (fun t _ => flushed8_eq V c d hd hne w1t hw1e hw1c t) cover8

/-- After all fifty grid points the second output array, the copy stored in the narrower format, is the same
    perceptron of the whole arrays. -/
theorem final1_9 (c : Dev nD) (d : Cert.Spec.Arr Cert.ReferenceIdeal.S200000)
    (hd : ∀ r : Fin 200000, V c main_v26 (ValueIdx.ix2 r (0 : Fin 1)) = Ideal.div 1 (d (ValueIdx.ix1 r)))
    (hne : ∀ r : Fin 200000, d (ValueIdx.ix1 r) ≠ 0)
    (w1t : Cert.Spec.Arr Cert.ReferenceIdeal.S256x128)
    (hw1e : ∀ (k : Fin 128) (q : Fin 128), V c main_v27 (ValueIdx.ix2 k q) = w1t (ValueIdx.ix2 (⟨k.val, by omega⟩ : Fin 256) q))
    (hw1c : ∀ (k : Fin 128) (q : Fin 128), V c main_v28 (ValueIdx.ix2 k q) = w1t (ValueIdx.ix2 (⟨128 + k.val, by omega⟩ : Fin 256) q)) :
    (dat1 (F := Ideal) V c).arrAt 9 cfg1.N
      = Cert.Spec.mlpRows (V c main_arg0) (V c main_v17) d w1t (V c main_v29) (V c main_v2) (V c main_v30) :=
  (dat1 (F := Ideal) V c).arrAt_eq_of_cover 9 _ (fun t _ => flushed9_eq V c d hd hne w1t hw1e hw1c t) cover9

end Cert.KernelIdeal.MlpRegion
end
-- ==== Proof.LibOneWord.lean ====
/-
  The 32-bit float word 0x3F800000 is the number one: sign 0, biased exponent 127, mantissa 0. On the extended reals
  the constant it spells, spread over an array of any shape, is therefore the array of ones.
-/
import Idealize.ShloMosaic.PureOps.Ideal
import Idealize.ShloMosaic.Lib.ValueIdx
import Idealize.ShloMosaic.Lib.Pipeline.Value

namespace Cert.Lib.OneWord

open Idealize.ShloMosaic

/-- The word 0x3F800000 read as a 32-bit float is 1. -/
theorem ofBits_one : Ideal.ofBits .f32 0x3F800000#32 = 1 := by
  simp [Ideal.ofBits, Ideal.ieee, -EReal.coe_mul]
  norm_num

/-- The scalar constant 1 spread over a shape by the host's broadcast is 1 at every index. -/
theorem bcast_one_apply {S : Shape} (hb : (⟨0, ![]⟩ : Shape).BroadcastsInDim S ![]) (i : S.Idx) :
    broadcastInDim S ![] hb (constant (F := Ideal) ⟨0, ![]⟩ .f32 0x3F800000#32) i = 1 := by
  rw [broadcastInDim_apply ![] hb (constant (F := Ideal) ⟨0, ![]⟩ .f32 0x3F800000#32) i ValueIdx.ix0 (fun a => a.elim0)]
  exact ofBits_one

end Cert.Lib.OneWord
-- ==== Proof.GruRegion.lean ====
/-
  The third region is the gated recurrent cell, applied to the object rows twenty-five blocks of 4000 rows at a time.
  With te the summed impulses and h the state of a row, gi = te·Wih + bih and gh = h·Whh + bhh are rows of 384
  entries, cut into thirds (r, z, n); r = σ(gi_r + gh_r), z = σ(gi_z + gh_z), n = tanh(gi_n + r·gh_n), and the new
  state is (1 − z)·n + z·h. Every step works on each row by itself: a row of a matrix product is that row times the
  matrix, the bias row is added to every row alike, a run of columns cut out of some rows is the same run of columns
  of those rows, and the remaining operations act entry by entry. So block t of the result is rows
  4000·t … 4000·t + 3999 of the update of the whole array; the twenty-five blocks tile the 100000 rows, and after the
  last grid point the output array is the update of the whole array — whatever the arrays held when the region was
  entered.
-/
import proofs.«108912_j90022514524502_2_alg».proof.Proof.Gen.KernelIdeal.Frame
import proofs.«108912_j90022514524502_2_alg».proof.Proof.Spec
import proofs.«108912_j90022514524502_2_alg».proof.Proof.LibRowBlock
import proofs.«108912_j90022514524502_2_alg».proof.Proof.LibOneWord
import Idealize.ShloMosaic.Lib.ValueIdx

noncomputable section

namespace Cert.KernelIdeal.GruRegion

open Idealize.ShloMosaic Idealize.ShloMosaic.TcCoe Idealize.SL.Sem Cert.KernelIdeal Cert.KernelIdeal.Gen
open Idealize.ShloMosaic.ValueIdx Idealize.ShloMosaic.RowBlock

variable (V : (c : Dev nD) → (b : Ref sig .tc) → Buf (Elt Ideal) ((c : Thread nD τ).loc b))

/-- The gate pre-activations of R rows: the rows times the weight matrix plus the bias row. -/
theorem gates_rows {t : ℕ} {h : t * 4000 + 4000 ≤ 100000}
    {l' : FVec Ideal S4000x128 .bf16} {X : Cert.Spec.Arr Cert.ReferenceIdeal.S100000x128}
    {w' : FVec Ideal S128x384 .bf16} {W : Cert.Spec.Arr Cert.ReferenceIdeal.S128x384}
    (b : Vec Ideal S1x384 .f32)
    (hl : IsRows t h l' X) (hw : ∀ (k : Fin 128) (q : Fin 384), w' (ix2 k q) = W (ix2 k q)) :
    IsRows t h
      (addf (matmul dot_S4000x128_S128x384_S4000x384_1_0_0_1_n_n none l' w' (constant S4000x384 .f32 0x00000000#32))
        (broadcastTo S4000x384 (shapeCast S1x384 b shapeCasts_S1x384_S1x384) broadcasts_S1x384_S4000x384))
      (Cert.Spec.gates X W b) := by
  unfold Cert.Spec.gates
  rw [shapeCast_self]
  exact IsRows.addf (IsRows.dot hl hw) (IsRows.rowBroadcast b _ _)

/-- The body of the cell on R rows is the R rows of the whole-array update. -/
theorem body_rows {t : ℕ} {h : t * 4000 + 4000 ≤ 100000}
    {x0 x1 : Vec Ideal S4000x128 .f32} {x2 x3 : Vec Ideal S128x384 .f32} {x4 x5 : Vec Ideal S1x384 .f32}
    {X0 X1 : Cert.Spec.Arr Cert.ReferenceIdeal.S100000x128} {W2 W3 : Cert.Spec.Arr Cert.ReferenceIdeal.S128x384}
    {B4 B5 : Cert.Spec.Arr Cert.ReferenceIdeal.S1x384}
    (h0 : IsRows t h x0 X0) (h1 : IsRows t h x1 X1)
    (h2 : ∀ (k : Fin 128) (q : Fin 384), x2 (ix2 k q) = W2 (ix2 k q))
    (h3 : ∀ (k : Fin 128) (q : Fin 384), x3 (ix2 k q) = W3 (ix2 k q))
    (h4 : x4 = B4) (h5 : x5 = B5) :
    IsRows t h (k2_pay1 x0 x1 x2 x3 x4 x5) (Cert.Spec.gruRows X0 X1 W2 W3 B4 B5) := by
  subst h4 h5
  have gi := gates_rows (t := t) (h := h) x4
    (IsRows.truncf (ψ := .bf16) bitsLt_bf16_f32 (IsRows.castSelf shapeCasts_S4000x128_S4000x128 h0))
    (w' := truncf .bf16 (shapeCast S128x384 x2 shapeCasts_S128x384_S128x384) bitsLt_bf16_f32)
    (castSelf_entries shapeCasts_S128x384_S128x384 h2)
  have gh := gates_rows (t := t) (h := h) x5
    (IsRows.truncf (ψ := .bf16) bitsLt_bf16_f32 h1)
    (w' := truncf .bf16 (shapeCast S128x384 x3 shapeCasts_S128x384_S128x384) bitsLt_bf16_f32)
    (castSelf_entries shapeCasts_S128x384_S128x384 h3)
  have one : ∀ i, Cert.Spec.ones i = 1 := fun i => Cert.Lib.OneWord.bcast_one_apply _ i
  have r := IsRows.logistic (φ := .f32) (φ' := .f32) one one (IsRows.addf (φ := .f32) (φ' := .f32)
    (IsRows.slice 0 gi Cert.ReferenceIdeal.Gen.slices_S100000x384_S100000x128_0_0 slices_S4000x384_o0_0_S4000x128 (by omega))
    (IsRows.slice 0 gh Cert.ReferenceIdeal.Gen.slices_S100000x384_S100000x128_0_0 slices_S4000x384_o0_0_S4000x128 (by omega)))
  have z := IsRows.logistic (φ := .f32) (φ' := .f32) one one (IsRows.addf (φ := .f32) (φ' := .f32)
    (IsRows.slice 128 gi Cert.ReferenceIdeal.Gen.slices_S100000x384_S100000x128_0_128 slices_S4000x384_o0_128_S4000x128 (by omega))
    (IsRows.slice 128 gh Cert.ReferenceIdeal.Gen.slices_S100000x384_S100000x128_0_128 slices_S4000x384_o0_128_S4000x128 (by omega)))
  have n := IsRows.tanh (φ := .f32) (φ' := .f32) (IsRows.addf (φ := .f32) (φ' := .f32)
    (IsRows.slice 256 gi Cert.ReferenceIdeal.Gen.slices_S100000x384_S100000x128_0_256 slices_S4000x384_o0_256_S4000x128 (by omega))
    (IsRows.mulf (φ := .f32) (φ' := .f32) r
      (IsRows.slice 256 gh Cert.ReferenceIdeal.Gen.slices_S100000x384_S100000x128_0_256 slices_S4000x384_o0_256_S4000x128 (by omega))))
  have o : IsRows t h (broadcast S4000x128 (Scalar.ofBits (F := Ideal) .f32 0x3F800000#32)) Cert.Spec.ones :=
    IsRows.const _ _
  exact IsRows.addf (φ := .f32) (φ' := .f32) (IsRows.mulf (φ := .f32) (φ' := .f32) (IsRows.subf (φ := .f32) (φ' := .f32) o z) n)
    (IsRows.mulf (φ := .f32) (φ' := .f32) z h1)

/-- Where each window's block sits at each grid point: the row-blocked windows at block (t, 0), the weight and bias
    windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The grid has twenty-five points. -/
theorem lt_N (t : Fin cfg2.N) : t.val < 25 := by have h : cfg2.N = 25 := N_2; have := t.isLt; omega

/-- So block t lies inside the 100000 rows. -/
theorem hrow (t : Fin cfg2.N) : t.val * 4000 + 4000 ≤ 100000 := by have := lt_N t; omega

/-- The first input block at point t is rows 4000·t … 4000·t + 3999 of its array. -/
theorem rows_te (c : Dev nD) (t : Fin cfg2.N) :
    IsRows (B := 100000) (R := 4000) t.val (hrow t) (iblk2 V c 0 t) (V c main_v42) := by
  intro p q
  obtain ⟨e0, e1, -⟩ := idx_facts t
  show V c main_v42 (((cfg2.win 0).blk t).view.emb (ix2 p q)) = V c main_v42 (ix2 (row t.val (hrow t) p) q)
  refine congrArg (V c main_v42) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * q.val = q.val; rw [e1]; omega

/-- The second input block at point t is the same rows of the state array. -/
theorem rows_h (c : Dev nD) (t : Fin cfg2.N) :
    IsRows (B := 100000) (R := 4000) t.val (hrow t) (iblk2 V c 1 t) (V c main_arg1) := by
  intro p q
  obtain ⟨-, -, e0, e1, -⟩ := idx_facts t
  show V c main_arg1 (((cfg2.win 1).blk t).view.emb (ix2 p q)) = V c main_arg1 (ix2 (row t.val (hrow t) p) q)
  refine congrArg (V c main_arg1) (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 128 + 1 * q.val = q.val; rw [e1]; omega

/-- The input-to-hidden weight block is the whole weight matrix at every point. -/
theorem whole_wih (c : Dev nD) (t : Fin cfg2.N) (k : Fin 128) (q : Fin 384) :
    iblk2 V c 2 t (ix2 k q) = V c main_v3 (ix2 k q) := by
  obtain ⟨-, -, -, -, e0, e1, -⟩ := idx_facts t
  show V c main_v3 (((cfg2.win 2).blk t).view.emb (ix2 k q)) = V c main_v3 (ix2 k q)
  refine congrArg (V c main_v3) (funext fun a => Fin.ext ?_)
  match a with
  | ⟨0, _⟩ => show win2_2.index t (0 : Fin 2) * 128 + 1 * k.val = k.val; rw [e0]; omega
  | ⟨1, _⟩ => show win2_2.index t (1 : Fin 2) * 384 + 1 * q.val = q.val; rw [e1]; omega

/-- The hidden-to-hidden weight block is the whole weight matrix at every point. -/
theorem whole_whh (c : Dev nD) (t : Fin cfg2.N) (k : Fin 128) (q : Fin 384) :
    iblk2 V c 3 t (ix2 k q) = V c main_v4 (ix2 k q) := by
  obtain ⟨-, -, -, -, -, -, e0, e1, -⟩ := idx_facts t
  show V c main_v4 (((cfg2.win 3).blk t).view.emb (ix2 k q)) = V c main_v4 (ix2 k q)
  refine congrArg (V c main_v4) (funext fun a => Fin.ext ?_)
  match a with
  | ⟨0, _⟩ => show win2_3.index t (0 : Fin 2) * 128 + 1 * k.val = k.val; rw [e0]; omega
  | ⟨1, _⟩ => show win2_3.index t (1 : Fin 2) * 384 + 1 * q.val = q.val; rw [e1]; omega

/-- The first bias block is the whole bias row at every point. -/
theorem whole_bih (c : Dev nD) (t : Fin cfg2.N) : iblk2 V c 4 t = V c main_v43 := by
  funext j
  obtain ⟨u, q, rfl⟩ : ∃ (u : Fin 1) (q : Fin 384), j = ix2 u q := ⟨j 0, j 1, eq_ix2 j⟩
  obtain ⟨-, -, -, -, -, -, -, -, e0, e1, -⟩ := idx_facts t
  show V c main_v43 (((cfg2.win 4).blk t).view.emb (ix2 u q)) = V c main_v43 (ix2 u q)
  refine congrArg (V c main_v43) (funext fun a => Fin.ext ?_)
  match a with
  | ⟨0, _⟩ => show win2_4.index t (0 : Fin 2) * 1 + 1 * u.val = u.val; rw [e0]; omega
  | ⟨1, _⟩ => show win2_4.index t (1 : Fin 2) * 384 + 1 * q.val = q.val; rw [e1]; omega

/-- The second bias block is the whole bias row at every point. -/
theorem whole_bhh (c : Dev nD) (t : Fin cfg2.N) : iblk2 V c 5 t = V c main_v44 := by
  funext j
  obtain ⟨u, q, rfl⟩ : ∃ (u : Fin 1) (q : Fin 384), j = ix2 u q := ⟨j 0, j 1, eq_ix2 j⟩
  obtain ⟨-, -, -, -, -, -, -, -, -, -, e0, e1, -⟩ := idx_facts t
  show V c main_v44 (((cfg2.win 5).blk t).view.emb (ix2 u q)) = V c main_v44 (ix2 u q)
  refine congrArg (V c main_v44) (funext fun a => Fin.ext ?_)
  match a with
  | ⟨0, _⟩ => show win2_5.index t (0 : Fin 2) * 1 + 1 * u.val = u.val; rw [e0]; omega
  | ⟨1, _⟩ => show win2_5.index t (1 : Fin 2) * 384 + 1 * q.val = q.val; rw [e1]; omega

/-- A block starts at offset zero inside its staging buffer. -/
theorem hz : (![0, 0] : Fin 2 → Nat) = fun _ => 0 := funext fun a => by fin_cases a <;> rfl

/-- What grid point t writes back is block t of the whole-array update of the entry arrays. -/
theorem flushed_eq (c : Dev nD) (t : Fin cfg2.N) :
    (dat2 (F := Ideal) V c).flushed 6 t
      = ((cfg2.win 6).blk t).view.read (Elt Ideal)
          (Cert.Spec.gruRows (V c main_v42) (V c main_arg1) (V c main_v3) (V c main_v4) (V c main_v43) (V c main_v44)) := by
  show (cfg2.win 6).cut (grid2.coords t) ((dat2 (F := Ideal) V c).after 6 t) = _
  rw [after2_6]
  unfold out2_6
  rw [View.canon_unit_zero hz]
  simp only [View.ld_unit_zero (S := S4000x128) hz, View.ld_unit_zero (S := S128x384) hz, View.ld_unit_zero (S := S1x384) hz]
  obtain ⟨-, -, -, -, -, -, -, -, -, -, -, -, e0, e1⟩ := idx_facts t
  funext j
  obtain ⟨p, q, rfl⟩ : ∃ (p : Fin 4000) (q : Fin 128), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
    = Cert.Spec.gruRows (V c main_v42) (V c main_arg1) (V c main_v3) (V c main_v4) (V c main_v43) (V c main_v44)
        (((cfg2.win 6).blk t).view.emb (ix2 p q))
  refine (body_rows (t := t.val) (h := hrow t) (x0 := iblk2 V c 0 t) (x1 := iblk2 V c 1 t) (x2 := iblk2 V c 2 t)
    (x3 := iblk2 V c 3 t) (x4 := iblk2 V c 4 t) (x5 := iblk2 V c 5 t)
    (X0 := V c main_v42) (X1 := V c main_arg1) (W2 := V c main_v3) (W3 := V c main_v4) (B4 := V c main_v43) (B5 := V c main_v44)
    (rows_te V c t) (rows_h V c t) (whole_wih V c t) (whole_whh V c t) (whole_bih V c t) (whole_bhh V c t) p q).trans ?_
  show Cert.Spec.gruRows (V c main_v42) (V c main_arg1) (V c main_v3) (V c main_v4) (V c main_v43) (V c main_v44)
      (ix2 (row t.val (hrow t) p) q)
    = Cert.Spec.gruRows (V c main_v42) (V c main_arg1) (V c main_v3) (V c main_v4) (V c main_v43) (V c main_v44)
      (((cfg2.win 6).blk t).view.emb (ix2 p q))
  refine congrArg _ (funext fun a => Fin.ext ?_)
  match a with
  | ⟨0, _⟩ => show t.val * 4000 + p.val = win2_6.index t (0 : Fin 2) * 4000 + 1 * p.val; rw [e0]; omega
  | ⟨1, _⟩ => show q.val = win2_6.index t (1 : Fin 2) * 128 + 1 * q.val; rw [e1]; omega

/-- An index of the output array lies in point t's block iff each coordinate lies in the block's range on its axis. -/
theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v45).slice (win2_6.rect t)).set ↔ _
  rw [View.set_slice_whole, Rect.mem_set_unit]
  exact Iff.rfl

/-- The twenty-five blocks of 4000 rows tile the 100000 rows: row r lies in block r / 4000. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := N_2
  refine ⟨⟨(i 0).val / 4000, by omega⟩, flush2_6 _, ?_⟩
  rw [mem_blk]
  obtain ⟨-, -, -, -, -, -, -, -, -, -, -, -, e0, e1⟩ := idx_facts ⟨(i 0).val / 4000, by omega⟩
  intro a
  match a with
  | ⟨0, _⟩ =>
    show win2_6.index _ (0 : Fin 2) * 4000 ≤ (i 0).val ∧ (i 0).val < win2_6.index _ (0 : Fin 2) * 4000 + 4000
    rw [e0]; show (i 0).val / 4000 * 4000 ≤ (i 0).val ∧ (i 0).val < (i 0).val / 4000 * 4000 + 4000; omega
  | ⟨1, _⟩ =>
    show win2_6.index _ (1 : Fin 2) * 128 ≤ (i 1).val ∧ (i 1).val < win2_6.index _ (1 : Fin 2) * 128 + 128
    rw [e1]; omega

/-- After all twenty-five grid points the output array is the gated recurrent update of every object row. -/
theorem final2_6 (c : Dev nD) :
    (dat2 (F := Ideal) V c).arrAt 6 cfg2.N
      = Cert.Spec.gruRows (V c main_v42) (V c main_arg1) (V c main_v3) (V c main_v4) (V c main_v43) (V c main_v44) :=
  (dat2 (F := Ideal) V c).arrAt_eq_of_cover 6 _ (fun t _ => flushed_eq V c t) cover

end Cert.KernelIdeal.GruRegion

end
-- ==== Proof.KernelValues.lean ====
/-
  What the kernel program's buffers hold at each boundary between its host stretches and its three regions, read back
  to the launch memory, and from that its two results as functions of the fourteen argument arrays. A host stretch is a
  list of whole-array operations, so a buffer after it is the operation's term of the buffers before it; a region
  leaves its output arrays at the stage's whole-array function of its entry arrays and every other buffer as it found
  it. The kernel program prepares its operands a little differently from the specification — a bias vector is reshaped
  to a row where the specification broadcasts it along a new axis, the first-layer weight matrix is cut into its two
  halves, the count's reciprocal is taken on the host and multiplied in the region — and each such difference is
  settled where the buffer is read: the reshaped vector is the broadcast one, the halves are read at an entry, the
  reciprocal of the clamped count is one over a number that is at least one.
-/
import proofs.«108912_j90022514524502_2_alg».proof.Proof.Gen.KernelIdeal.Frame
import proofs.«108912_j90022514524502_2_alg».proof.Proof.SpecWhole
import proofs.«108912_j90022514524502_2_alg».proof.Proof.ProjRegion
import proofs.«108912_j90022514524502_2_alg».proof.Proof.MlpRegion
import proofs.«108912_j90022514524502_2_alg».proof.Proof.GruRegion
import proofs.«108912_j90022514524502_2_alg».proof.Proof.LibOneWord
import Idealize.ShloMosaic.Lib.StableHlo.Run
import Idealize.ShloMosaic.Lib.ValueIdx

set_option maxRecDepth 16384

noncomputable section

namespace Cert.KernelIdeal.Values
open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg) (c : Dev nD)

/-! ## Entering the first region: the launch memory after the transposes and the bias reshape -/

theorem V1_arg1 : V1 m ρ c main_arg1 = m ((c : Thread nD τ).loc main_arg1) := by
  show StableHlo.after hostOps0 (W0 m ρ c) (Proc.devRef .tc main_arg1) = _
  after_results
theorem V1_v0 : V1 m ρ c main_v0 = transpose S128x128 [1, 0] (m ((c : Thread nD τ).loc main_arg4)) transposes_S128x128_S128x128_1_0 := by
  show StableHlo.after hostOps0 (W0 m ρ c) (Proc.devRef .tc main_v0) = _
  after_results
theorem V1_v5 : V1 m ρ c main_v5 = shapeCast S1x128 (m ((c : Thread nD τ).loc main_arg5)) shapeCasts_S128_S1x128 := by
  show StableHlo.after hostOps0 (W0 m ρ c) (Proc.devRef .tc main_v5) = _
  after_results
  rfl

/-! ## Leaving the first region -/

/-- The projected object rows. -/
def proj : Cert.Spec.Arr Cert.ReferenceIdeal.S100000x128 :=
  Cert.Spec.projRows (m ((c : Thread nD τ).loc main_arg1))
    (transpose S128x128 [1, 0] (m ((c : Thread nD τ).loc main_arg4)) transposes_S128x128_S128x128_1_0)
    (shapeCast S1x128 (m ((c : Thread nD τ).loc main_arg5)) shapeCasts_S128_S1x128)

theorem W2_v6 : W2 m ρ c (Proc.devRef .tc main_v6) = proj m c := by
  refine (W2_arr m ρ c 3).trans ?_
  rw [Cert.KernelIdeal.ProjRegion.final0_3 (V1 m ρ) c, V1_arg1, V1_v0, V1_v5]
  rfl

/-! ## Buffers the first region does not touch, read at its exit -/

theorem W2_arg0 : W2 m ρ c (Proc.devRef .tc main_arg0) = m ((c : Thread nD τ).loc main_arg0) :=
  (W2_of_ne m ρ c main_arg0 (by decide)).trans (by show StableHlo.after hostOps0 (W0 m ρ c) (Proc.devRef .tc main_arg0) = _; after_results)
theorem W2_arg2 : W2 m ρ c (Proc.devRef .tc main_arg2) = m ((c : Thread nD τ).loc main_arg2) :=
  (W2_of_ne m ρ c main_arg2 (by decide)).trans (by show StableHlo.after hostOps0 (W0 m ρ c) (Proc.devRef .tc main_arg2) = _; after_results)
theorem W2_arg3 : W2 m ρ c (Proc.devRef .tc main_arg3) = m ((c : Thread nD τ).loc main_arg3) :=
  (W2_of_ne m ρ c main_arg3 (by decide)).trans (by show StableHlo.after hostOps0 (W0 m ρ c) (Proc.devRef .tc main_arg3) = _; after_results)
theorem W2_arg7 : W2 m ρ c (Proc.devRef .tc main_arg7) = m ((c : Thread nD τ).loc main_arg7) :=
  (W2_of_ne m ρ c main_arg7 (by decide)).trans (by show StableHlo.after hostOps0 (W0 m ρ c) (Proc.devRef .tc main_arg7) = _; after_results)
theorem W2_arg9 : W2 m ρ c (Proc.devRef .tc main_arg9) = m ((c : Thread nD τ).loc main_arg9) :=
  (W2_of_ne m ρ c main_arg9 (by decide)).trans (by show StableHlo.after hostOps0 (W0 m ρ c) (Proc.devRef .tc main_arg9) = _; after_results)
theorem W2_v1 : W2 m ρ c (Proc.devRef .tc main_v1) = transpose S256x128 [1, 0] (m ((c : Thread nD τ).loc main_arg6)) transposes_S128x256_S256x128_1_0 :=
  (W2_of_ne m ρ c main_v1 (by decide)).trans (by show StableHlo.after hostOps0 (W0 m ρ c) (Proc.devRef .tc main_v1) = _; after_results)
theorem W2_v2 : W2 m ρ c (Proc.devRef .tc main_v2) = transpose S128x128 [1, 0] (m ((c : Thread nD τ).loc main_arg8)) transposes_S128x128_S128x128_1_0 :=
  (W2_of_ne m ρ c main_v2 (by decide)).trans (by show StableHlo.after hostOps0 (W0 m ρ c) (Proc.devRef .tc main_v2) = _; after_results)

theorem V3_arg0 : V3 m ρ c main_arg0 = m ((c : Thread nD τ).loc main_arg0) := by
  show StableHlo.after hostOps1 (W2 m ρ c) (Proc.devRef .tc main_arg0) = _
  after_results
  exact W2_arg0 m ρ c

/-- The summed messages: the kernel gathers the projected rows and sums them over each event's edges, as the
    specification does. -/
theorem V3_v17 : V3 m ρ c main_v17 = Cert.Spec.summed (proj m c) (m ((c : Thread nD τ).loc main_arg2)) (m ((c : Thread nD τ).loc main_arg3)) := by
  show StableHlo.after hostOps1 (W2 m ρ c) (Proc.devRef .tc main_v17) = _
  after_results
  rw [W2_arg2, W2_v6, W2_arg3]
  rfl

/-- The column of reciprocals at row r is one over the clamped edge count of event r. -/
theorem V3_v26_apply (r : Fin 200000) :
    V3 m ρ c main_v26 (ValueIdx.ix2 r (0 : Fin 1)) = Ideal.div 1 (Cert.Spec.cntMax (m ((c : Thread nD τ).loc main_arg2)) (ValueIdx.ix1 r)) := by
  have e : V3 m ρ c main_v26 = shapeCast S200000x1 (Host.divf (broadcastInDim S200000 ![] bcast_S_S200000 (constant (F := Ideal) S_ .f32 0x3F800000#32)) (Cert.Spec.cntMax (m ((c : Thread nD τ).loc main_arg2)))) shapeCasts_S200000_S200000x1 := by
    show StableHlo.after hostOps1 (W2 m ρ c) (Proc.devRef .tc main_v26) = _
    after_results
    rw [W2_arg2]
    rfl
  rw [e, shapeCast_apply _ _ (ValueIdx.ix2 r (0 : Fin 1)) (ValueIdx.ix1 r) (by
    rw [Shape.rowMajor_val_one, Shape.rowMajor_val_two]; show r.val = r.val * 1 + 0; omega)]
  rw [ValueIdx.hostDivf_apply, Cert.Lib.OneWord.bcast_one_apply]

/-- The clamped edge count is at least one, so it is not zero. -/
theorem cntMax_ne (r : Fin 200000) : Cert.Spec.cntMax (m ((c : Thread nD τ).loc main_arg2)) (ValueIdx.ix1 r) ≠ 0 := by
  have h1 : (1 : EReal) ≤ Cert.Spec.cntMax (m ((c : Thread nD τ).loc main_arg2)) (ValueIdx.ix1 r) := by
    unfold Cert.Spec.cntMax
    rw [ValueIdx.maximumf_apply, Cert.Lib.OneWord.bcast_one_apply]
    exact le_max_right _ _
  exact ne_of_gt (lt_of_lt_of_le zero_lt_one h1)

/-- The first-layer weight matrix, transposed: 256 rows (the event features, then the mean message) by 128 columns. -/
def w1t : Cert.Spec.Arr Cert.ReferenceIdeal.S256x128 :=
  transpose Cert.ReferenceIdeal.S256x128 [1, 0] (m ((c : Thread nD τ).loc main_arg6)) Cert.ReferenceIdeal.Gen.transposes_S128x256_S256x128_1_0

/-- Its top half: the rows that meet the event features. -/
theorem V3_v27_apply (k : Fin 128) (q : Fin 128) :
    V3 m ρ c main_v27 (ValueIdx.ix2 k q) = w1t m c (ValueIdx.ix2 (⟨k.val, by omega⟩ : Fin 256) q) := by
  have e : V3 m ρ c main_v27 = extractStridedSlice S128x128 ![0, 0] (transpose S256x128 [1, 0] (m ((c : Thread nD τ).loc main_arg6)) transposes_S128x256_S256x128_1_0) slices_S256x128_S128x128_0_0 := by
    show StableHlo.after hostOps1 (W2 m ρ c) (Proc.devRef .tc main_v27) = _
    after_results
    rw [W2_v1]
  rw [e]
  exact ValueIdx.slice2_axis0_apply 0 _ _ k q ⟨k.val, by omega⟩ (by simp)

/-- Its bottom half: the rows that meet the mean message. -/
theorem V3_v28_apply (k : Fin 128) (q : Fin 128) :
    V3 m ρ c main_v28 (ValueIdx.ix2 k q) = w1t m c (ValueIdx.ix2 (⟨128 + k.val, by omega⟩ : Fin 256) q) := by
  have e : V3 m ρ c main_v28 = extractStridedSlice S128x128 ![128, 0] (transpose S256x128 [1, 0] (m ((c : Thread nD τ).loc main_arg6)) transposes_S128x256_S256x128_1_0) slices_S256x128_S128x128_128_0 := by
    show StableHlo.after hostOps1 (W2 m ρ c) (Proc.devRef .tc main_v28) = _
    after_results
    rw [W2_v1]
  rw [e]
  exact ValueIdx.slice2_axis0_apply 128 _ _ k q ⟨128 + k.val, by omega⟩ rfl

theorem V3_v29 : V3 m ρ c main_v29 = shapeCast S1x128 (m ((c : Thread nD τ).loc main_arg7)) shapeCasts_S128_S1x128 := by
  show StableHlo.after hostOps1 (W2 m ρ c) (Proc.devRef .tc main_v29) = _
  after_results
  rw [W2_arg7]
  rfl
theorem V3_v2 : V3 m ρ c main_v2 = transpose S128x128 [1, 0] (m ((c : Thread nD τ).loc main_arg8)) transposes_S128x128_S128x128_1_0 := by
  show StableHlo.after hostOps1 (W2 m ρ c) (Proc.devRef .tc main_v2) = _
  after_results
  exact W2_v2 m ρ c
theorem V3_v30 : V3 m ρ c main_v30 = shapeCast S1x128 (m ((c : Thread nD τ).loc main_arg9)) shapeCasts_S128_S1x128 := by
  show StableHlo.after hostOps1 (W2 m ρ c) (Proc.devRef .tc main_v30) = _
  after_results
  rw [W2_arg9]
  rfl

/-! ## Leaving the second region -/

/-- The impulse of every event row. -/
def impulse : Cert.Spec.Arr Cert.ReferenceIdeal.S200000x128 :=
  Cert.Spec.mlpRows (m ((c : Thread nD τ).loc main_arg0))
    (Cert.Spec.summed (proj m c) (m ((c : Thread nD τ).loc main_arg2)) (m ((c : Thread nD τ).loc main_arg3)))
    (Cert.Spec.cntMax (m ((c : Thread nD τ).loc main_arg2))) (w1t m c)
    (shapeCast S1x128 (m ((c : Thread nD τ).loc main_arg7)) shapeCasts_S128_S1x128)
    (transpose S128x128 [1, 0] (m ((c : Thread nD τ).loc main_arg8)) transposes_S128x128_S128x128_1_0)
    (shapeCast S1x128 (m ((c : Thread nD τ).loc main_arg9)) shapeCasts_S128_S1x128)

theorem W4_v31_0 : W4 m ρ c (Proc.devRef .tc main_v31_0) = impulse m c := by
  refine (W4_arr m ρ c 8).trans ?_
  rw [Cert.KernelIdeal.MlpRegion.final1_8 (V3 m ρ) c (Cert.Spec.cntMax (m ((c : Thread nD τ).loc main_arg2)))
    (V3_v26_apply m ρ c) (cntMax_ne m c) (w1t m c) (V3_v27_apply m ρ c) (V3_v28_apply m ρ c),
    V3_arg0, V3_v17, V3_v29, V3_v2, V3_v30]
  rfl

theorem W4_v31_1 : W4 m ρ c (Proc.devRef .tc main_v31_1) = impulse m c := by
  refine (W4_arr m ρ c 9).trans ?_
  rw [Cert.KernelIdeal.MlpRegion.final1_9 (V3 m ρ) c (Cert.Spec.cntMax (m ((c : Thread nD τ).loc main_arg2)))
    (V3_v26_apply m ρ c) (cntMax_ne m c) (w1t m c) (V3_v27_apply m ρ c) (V3_v28_apply m ρ c),
    V3_arg0, V3_v17, V3_v29, V3_v2, V3_v30]
  rfl

/-! ## Arguments and prepared weights at the second region's exit, read back to the launch memory -/

theorem W4_arg1 : W4 m ρ c (Proc.devRef .tc main_arg1) = m ((c : Thread nD τ).loc main_arg1) := by
  refine (W4_of_ne m ρ c main_arg1 (by decide)).trans ?_
  show StableHlo.after hostOps1 (W2 m ρ c) (Proc.devRef .tc main_arg1) = _
  after_results
  refine ((W2_arr m ρ c 0).trans (((dat0 (V1 m ρ) c).arrAt_in 0 rfl _).trans (A_eq0 (V1 m ρ) c 0))).trans ?_
  show StableHlo.after hostOps0 (W0 m ρ c) (Proc.devRef .tc main_arg1) = _
  after_results

theorem W4_arg2 : W4 m ρ c (Proc.devRef .tc main_arg2) = m ((c : Thread nD τ).loc main_arg2) := by
  refine (W4_of_ne m ρ c main_arg2 (by decide)).trans ?_
  show StableHlo.after hostOps1 (W2 m ρ c) (Proc.devRef .tc main_arg2) = _
  after_results
  refine (W2_of_ne m ρ c main_arg2 (by decide)).trans ?_
  show StableHlo.after hostOps0 (W0 m ρ c) (Proc.devRef .tc main_arg2) = _
  after_results

theorem W4_arg3 : W4 m ρ c (Proc.devRef .tc main_arg3) = m ((c : Thread nD τ).loc main_arg3) := by
  refine (W4_of_ne m ρ c main_arg3 (by decide)).trans ?_
  show StableHlo.after hostOps1 (W2 m ρ c) (Proc.devRef .tc main_arg3) = _
  after_results
  refine (W2_of_ne m ρ c main_arg3 (by decide)).trans ?_
  show StableHlo.after hostOps0 (W0 m ρ c) (Proc.devRef .tc main_arg3) = _
  after_results

theorem W4_arg12 : W4 m ρ c (Proc.devRef .tc main_arg12) = m ((c : Thread nD τ).loc main_arg12) := by
  refine (W4_of_ne m ρ c main_arg12 (by decide)).trans ?_
  show StableHlo.after hostOps1 (W2 m ρ c) (Proc.devRef .tc main_arg12) = _
  after_results
  refine (W2_of_ne m ρ c main_arg12 (by decide)).trans ?_
  show StableHlo.after hostOps0 (W0 m ρ c) (Proc.devRef .tc main_arg12) = _
  after_results

theorem W4_arg13 : W4 m ρ c (Proc.devRef .tc main_arg13) = m ((c : Thread nD τ).loc main_arg13) := by
  refine (W4_of_ne m ρ c main_arg13 (by decide)).trans ?_
  show StableHlo.after hostOps1 (W2 m ρ c) (Proc.devRef .tc main_arg13) = _
  after_results
  refine (W2_of_ne m ρ c main_arg13 (by decide)).trans ?_
  show StableHlo.after hostOps0 (W0 m ρ c) (Proc.devRef .tc main_arg13) = _
  after_results

theorem W4_v3 : W4 m ρ c (Proc.devRef .tc main_v3)
    = transpose S128x384 [1, 0] (m ((c : Thread nD τ).loc main_arg10)) transposes_S384x128_S128x384_1_0 := by
  refine (W4_of_ne m ρ c main_v3 (by decide)).trans ?_
  show StableHlo.after hostOps1 (W2 m ρ c) (Proc.devRef .tc main_v3) = _
  after_results
  refine (W2_of_ne m ρ c main_v3 (by decide)).trans ?_
  show StableHlo.after hostOps0 (W0 m ρ c) (Proc.devRef .tc main_v3) = _
  after_results

theorem W4_v4 : W4 m ρ c (Proc.devRef .tc main_v4)
    = transpose S128x384 [1, 0] (m ((c : Thread nD τ).loc main_arg11)) transposes_S384x128_S128x384_1_0 := by
  refine (W4_of_ne m ρ c main_v4 (by decide)).trans ?_
  show StableHlo.after hostOps1 (W2 m ρ c) (Proc.devRef .tc main_v4) = _
  after_results
  refine (W2_of_ne m ρ c main_v4 (by decide)).trans ?_
  show StableHlo.after hostOps0 (W0 m ρ c) (Proc.devRef .tc main_v4) = _
  after_results

/-! ## Entering the third region -/

theorem V5_arg1 : V5 m ρ c main_arg1 = m ((c : Thread nD τ).loc main_arg1) := by
  show StableHlo.after hostOps2 (W4 m ρ c) (Proc.devRef .tc main_arg1) = _
  after_results
  exact W4_arg1 m ρ c

theorem V5_v3 : V5 m ρ c main_v3
    = transpose S128x384 [1, 0] (m ((c : Thread nD τ).loc main_arg10)) transposes_S384x128_S128x384_1_0 := by
  show StableHlo.after hostOps2 (W4 m ρ c) (Proc.devRef .tc main_v3) = _
  after_results
  exact W4_v3 m ρ c

theorem V5_v4 : V5 m ρ c main_v4
    = transpose S128x384 [1, 0] (m ((c : Thread nD τ).loc main_arg11)) transposes_S384x128_S128x384_1_0 := by
  show StableHlo.after hostOps2 (W4 m ρ c) (Proc.devRef .tc main_v4) = _
  after_results
  exact W4_v4 m ρ c

theorem V5_v43 : V5 m ρ c main_v43 = shapeCast S1x384 (m ((c : Thread nD τ).loc main_arg12)) shapeCasts_S384_S1x384 := by
  show StableHlo.after hostOps2 (W4 m ρ c) (Proc.devRef .tc main_v43) = _
  after_results
  rw [W4_arg12 m ρ c]
  rfl

theorem V5_v44 : V5 m ρ c main_v44 = shapeCast S1x384 (m ((c : Thread nD τ).loc main_arg13)) shapeCasts_S384_S1x384 := by
  show StableHlo.after hostOps2 (W4 m ρ c) (Proc.devRef .tc main_v44) = _
  after_results
  rw [W4_arg13 m ρ c]
  rfl

theorem V5_v42 : V5 m ρ c main_v42
    = Cert.Spec.totalEffect (W4 m ρ c (Proc.devRef .tc main_v31_1)) (m ((c : Thread nD τ).loc main_arg2)) (m ((c : Thread nD τ).loc main_arg3)) := by
  show StableHlo.after hostOps2 (W4 m ρ c) (Proc.devRef .tc main_v42) = _
  after_results
  rw [W4_arg2 m ρ c, W4_arg3 m ρ c]
  rfl

/-! ## Leaving the third region -/

theorem W6_v45 : W6 m ρ c (Proc.devRef .tc main_v45)
    = Cert.Spec.gruRows
        (Cert.Spec.totalEffect (W4 m ρ c (Proc.devRef .tc main_v31_1)) (m ((c : Thread nD τ).loc main_arg2)) (m ((c : Thread nD τ).loc main_arg3)))
        (m ((c : Thread nD τ).loc main_arg1))
        (transpose S128x384 [1, 0] (m ((c : Thread nD τ).loc main_arg10)) transposes_S384x128_S128x384_1_0)
        (transpose S128x384 [1, 0] (m ((c : Thread nD τ).loc main_arg11)) transposes_S384x128_S128x384_1_0)
        (shapeCast S1x384 (m ((c : Thread nD τ).loc main_arg12)) shapeCasts_S384_S1x384)
        (shapeCast S1x384 (m ((c : Thread nD τ).loc main_arg13)) shapeCasts_S384_S1x384) := by
  refine (W6_arr m ρ c 6).trans ?_
  rw [Cert.KernelIdeal.GruRegion.final2_6 (V5 m ρ) c, V5_v42, V5_arg1, V5_v3, V5_v4, V5_v43, V5_v44]

theorem W6_v31_0 : W6 m ρ c (Proc.devRef .tc main_v31_0) = W4 m ρ c (Proc.devRef .tc main_v31_0) := by
  refine (W6_of_ne m ρ c main_v31_0 (by decide)).trans ?_
  show StableHlo.after hostOps2 (W4 m ρ c) (Proc.devRef .tc main_v31_0) = _
  after_results

/-! ## The two results as functions of the arguments -/

/-- A bias vector of 128 entries reshaped to a row is the vector broadcast along a new leading axis. -/
theorem row128_eq (b : Cert.Spec.Arr Cert.ReferenceIdeal.S128) : shapeCast S1x128 b shapeCasts_S128_S1x128 = Cert.Spec.row128 b :=
  Idealize.ShloMosaic.RowBlock.rowOfVector b _ _

/-- The same for 384 entries. -/
theorem row384_eq (b : Cert.Spec.Arr Cert.ReferenceIdeal.S384) : shapeCast S1x384 b shapeCasts_S384_S1x384 = Cert.Spec.row384 b :=
  Idealize.ShloMosaic.RowBlock.rowOfVector b _ _

/-- The impulse the kernel program computes is the specification's. -/
theorem impulse_eq : impulse m c = Cert.Spec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold impulse proj w1t Cert.Spec.out1
  rw [row128_eq, row128_eq, row128_eq]

/-- The kernel program's second result. -/
theorem out1_kernel : W6 m ρ c (Proc.devRef .tc main_v31_0) = Cert.Spec.out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W6_v31_0 m ρ c).trans ((W4_v31_0 m ρ c).trans (impulse_eq m c))

/-- The kernel program's first result. -/
theorem out0_kernel : W6 m ρ c (Proc.devRef .tc main_v45) = Cert.Spec.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W6_v45, W4_v31_1, impulse_eq, row384_eq, row384_eq]
  rfl

end Cert.KernelIdeal.Values

end
-- ==== Proof.RefValue.lean ====
/-
  The reference program's run with its two results read as the specification's functions of the argument arrays. The
  reference is a straight line of whole-array host operations, so each result is the operations' composed term of the
  arguments; the stages of the specification were cut out of exactly that term, and unfolding them gives it back.
-/
import proofs.«108912_j90022514524502_2_alg».proof.Proof.Gen.ReferenceIdeal.Run
import proofs.«108912_j90022514524502_2_alg».proof.Proof.SpecWhole

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (ρ : Dev nD → PrngReg)

/-- The composed term of the reference's first result is the updated state of every object row. -/
theorem out0_eq (c : Dev nD) : res_main_v83 (F := Ideal) m c = Cert.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold res_main_v83 Cert.Spec.out0 Cert.Spec.out1 Cert.Spec.gruRows Cert.Spec.gates Cert.Spec.sigm Cert.Spec.ones Cert.Spec.totalEffect Cert.Spec.mlpRows Cert.Spec.summed Cert.Spec.cntMax Cert.Spec.projRows Cert.Spec.idxCol Cert.Spec.row128 Cert.Spec.row384
  rfl

/-- The reference's run: the first result is the updated object states, the second the events' impulses, and the
    arguments end as launched. -/
theorem run : θ_run defs (onTc (τ := τ) (main (F := Ideal))) ⟨m, fun _ => 0, ρ⟩ fun r => ∀ c : Dev nD,
      r.2.mem ((c.tc : Thread nD τ).loc main_v83) = Cert.Spec.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v35) = Cert.Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (out0_eq m c),
      (h c).2.1.trans (by unfold Cert.Spec.out1 Cert.Spec.mlpRows Cert.Spec.summed Cert.Spec.cntMax Cert.Spec.projRows Cert.Spec.idxCol Cert.Spec.row128; rfl),
      (h c).2.2⟩)
    (Cert.ReferenceIdeal.Value.run (F := Ideal) m ρ)

end Cert.ReferenceIdeal.RefValue

end
-- ==== Proof.lean ====
/-
  The kernel and its reference compute the same two arrays on the extended reals.

  Both programs project every object row (x·Waᵀ + ba), gather the projected rows along the edges and sum them over each
  event's edges, divide by the clamped edge count, run a two-layer perceptron on each event's features joined with
  that mean, gather the resulting impulses along the edges and sum them over each object's edges, and update every
  object's state by a gated recurrent cell. The kernel does the three dense stages in regions that work through the
  rows in blocks (ten blocks of 10000 object rows, fifty of 4000 event rows, twenty-five of 4000 object rows); the
  gathers and the sums over edges are the same host operations in both programs.

  What differs, and why it does not matter on the extended reals, where a change of float format is the identity and
  every operation is exact: a block of rows of a matrix product, of an entrywise operation, of a bias row added to every
  row, or of a run of columns cut out, is that operation of the block of rows, and the blocks tile the arrays; the
  kernel multiplies the summed messages by 1 / max(count, 1) where the reference divides by max(count, 1), and off zero
  a quotient is the product with the reciprocal — max(count, 1) is at least one; the kernel adds the products of the
  event features and of the mean message with the two halves of the first weight matrix where the reference multiplies
  the joined row with the whole matrix, and a sum over 256 positions is the sum of the sums over its two stretches of
  128; the kernel's logistic function is by definition the reference's 1 / (1 + exp (−x)). None of these laws needs a
  finite entry, so the precondition is not used.

  The frames of the two kernel programs are the generated ones; the reference's frame is its generated run with the
  results dropped; the kernel program's idealization rewrote nothing.
-/
import proofs.«108912_j90022514524502_2_alg».proof.Defs
import proofs.«108912_j90022514524502_2_alg».proof.Proof.Gen.Kernel
import proofs.«108912_j90022514524502_2_alg».proof.Proof.Gen.Kernel.Frame
import proofs.«108912_j90022514524502_2_alg».proof.Proof.Gen.KernelIdeal
import proofs.«108912_j90022514524502_2_alg».proof.Proof.Gen.KernelIdeal.Frame
import proofs.«108912_j90022514524502_2_alg».proof.Proof.Gen.ReferenceIdeal
import proofs.«108912_j90022514524502_2_alg».proof.Proof.Gen.ReferenceIdeal.Run
import proofs.«108912_j90022514524502_2_alg».proof.Proof.Gen.Pre_finite_inputs
import proofs.«108912_j90022514524502_2_alg».proof.Proof.KernelRun
import proofs.«108912_j90022514524502_2_alg».proof.Proof.KernelValues
import proofs.«108912_j90022514524502_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the specification's two functions of the argument arrays, and the two memories agree on
    the arguments. -/
theorem algebraic : Cert.algebraic_KernelIdeal_ReferenceIdeal := by
  intro m ρ m' ρ' _ hagree
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c).1.trans (Cert.KernelIdeal.Values.out0_kernel m ρ c),
       (h c).2.1.trans (Cert.KernelIdeal.Values.out1_kernel m ρ c), (h c).2.2⟩)
      (Cert.KernelIdeal.RunValues.run (F := Ideal) m ρ)
  · refine (θ_run Cert.ReferenceIdeal.defs _ _).mono (fun r h c => ?_) (Cert.ReferenceIdeal.RefValue.run m' ρ')
    obtain ⟨a0, a1, a2, a3, a4, a5, a6, a7, a8, a9, a10, a11, a12, a13⟩ := hagree c
    refine ⟨(h c).1.trans ?_, (h c).2.1.trans ?_, (h c).2.2⟩
    · rw [a0, a1, a2, a3, a4, a5, a6, a7, a8, a9, a10, a11, a12, a13]
    · rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
